-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v14)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v9)) (v5 : (c : Dev Cert.KernelIdeal.nD) → Buf (Elt Ideal) ((c.tc : Thread Cert.KernelIdeal.nD Cert.KernelIdeal.τ).loc Cert.KernelIdeal.main_v8)) (v6 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_v8) = v5 c
          ∧ r.2.mem ((c.tc : Thread Cert.KernelIdeal.nD Cert.KernelIdeal.τ).loc Cert.KernelIdeal.main_v10) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_v4) = v3 c
          ∧ r.2.mem ((c.tc : Thread Cert.ReferenceIdeal.nD Cert.ReferenceIdeal.τ).loc Cert.ReferenceIdeal.main_v11) = v4 c
          ∧ r.2.mem ((c.tc : Thread Cert.ReferenceIdeal.nD Cert.ReferenceIdeal.τ).loc Cert.ReferenceIdeal.main_v6) = v5 c
          ∧ r.2.mem ((c.tc : Thread Cert.ReferenceIdeal.nD Cert.ReferenceIdeal.τ).loc Cert.ReferenceIdeal.main_v13) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64x32 : Shape := ⟨2, ![64, 32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_

variable [Facts]

def fn_part1 {F : FTy → Type} [FloatOps F] (main_arg4 : FVec F S128x64 .f32) (main_arg5 : FVec F S64x32 .f32) (main_arg6 : FVec F S64x32 .f32) (main_v13 : IVec S_ 1) (main_v16 : IVec S10000x10000 1) : IVec S_ 1 :=
  let main_c_5 : IVec S_ 1 := constantI S_ 1 1#1
  let main_v17 : IVec S_ 1 := (fun x v => Host.reduce IntOp.andi x v reducesTo_S10000x10000_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64x32 .f32 := Host.absf main_arg5
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S64x32 .f32 := Host.absf main_arg6
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  main_v33

def fn {F : FTy → Type} [FloatOps F] (main_arg0 : FVec F S10000x128 .f32) (main_arg1 : FVec F S10000x128 .f32) (main_arg2 : FVec F S10000x10000 .f32) (main_arg3 : FVec F S10000x10000 .f32) (main_arg4 : FVec F S128x64 .f32) (main_arg5 : FVec F S64x32 .f32) (main_arg6 : FVec F S64x32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S10000x10000 .f32 := Host.absf main_arg3
  let main_cst_4 : FVec F S_ .f32 := constant S_ .f32 0x7F800000#32
  let main_v15 : FVec F S10000x10000 .f32 := broadcastInDim S10000x10000 ![] bcast_S_S10000x10000 main_cst_4
  let main_v16 : IVec S10000x10000 1 := cmpf .olt main_v14 main_v15
  fn_part1 (F := F) main_arg4 main_arg5 main_arg6 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64x32 : Shape := ⟨2, ![64, 32]⟩
abbrev S64x64 : Shape := ⟨2, ![64, 64]⟩
abbrev S10000x64 : Shape := ⟨2, ![10000, 64]⟩
abbrev S400x10000 : Shape := ⟨2, ![400, 10000]⟩
abbrev S400x64 : Shape := ⟨2, ![400, 64]⟩
abbrev S10000x32 : Shape := ⟨2, ![10000, 32]⟩
abbrev S32x10000 : Shape := ⟨2, ![32, 10000]⟩
abbrev S400x32 : Shape := ⟨2, ![400, 32]⟩

abbrev nBuf : Space → Nat
  | .hbm => 22
  | .vmem => 33
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x10000, .f32⟩
  | .hbm, ⟨3, _⟩ => ⟨S10000x10000, .f32⟩
  | .hbm, ⟨4, _⟩ => ⟨S128x64, .f32⟩
  | .hbm, ⟨5, _⟩ => ⟨S64x32, .f32⟩
  | .hbm, ⟨6, _⟩ => ⟨S64x32, .f32⟩
  | .hbm, ⟨7, _⟩ => ⟨S64x64, .f32⟩
  | .hbm, ⟨8, _⟩ => ⟨S10000x64, .f32⟩
  | .hbm, ⟨9, _⟩ => ⟨S10000x64, .f32⟩
  | .hbm, ⟨10, _⟩ => ⟨S10000x64, .f32⟩
  | .hbm, ⟨11, _⟩ => ⟨S10000x64, .f32⟩
  | .hbm, ⟨12, _⟩ => ⟨S10000x64, .f32⟩
  | .hbm, ⟨13, _⟩ => ⟨S10000x64, .f32⟩
  | .hbm, ⟨14, _⟩ => ⟨S10000x32, .f32⟩
  | .hbm, ⟨15, _⟩ => ⟨S10000x32, .f32⟩
  | .hbm, ⟨16, _⟩ => ⟨S10000x32, .f32⟩
  | .hbm, ⟨17, _⟩ => ⟨S10000x32, .f32⟩
  | .hbm, ⟨18, _⟩ => ⟨S10000x32, .bf16⟩
  | .hbm, ⟨19, _⟩ => ⟨S32x10000, .f32⟩
  | .hbm, ⟨20, _⟩ => ⟨S32x10000, .bf16⟩
  | .hbm, ⟨21, _⟩ => ⟨S10000x10000, .f32⟩
  | .local _ .vmem, ⟨0, _⟩ => ⟨S10000x128, .f32⟩
  | .local _ .vmem, ⟨1, _⟩ => ⟨S128x64, .f32⟩
  | .local _ .vmem, ⟨2, _⟩ => ⟨S10000x64, .f32⟩
  | .local _ .vmem, ⟨3, _⟩ => ⟨S10000x128, .f32⟩
  | .local _ .vmem, ⟨4, _⟩ => ⟨S128x64, .f32⟩
  | .local _ .vmem, ⟨5, _⟩ => ⟨S10000x64, .f32⟩
  | .local _ .vmem, ⟨6, _⟩ => ⟨S400x10000, .f32⟩
  | .local _ .vmem, ⟨7, _⟩ => ⟨S400x10000, .f32⟩
  | .local _ .vmem, ⟨8, _⟩ => ⟨S10000x64, .f32⟩
  | .local _ .vmem, ⟨9, _⟩ => ⟨S64x64, .f32⟩
  | .local _ .vmem, ⟨10, _⟩ => ⟨S400x64, .f32⟩
  | .local _ .vmem, ⟨11, _⟩ => ⟨S400x64, .f32⟩
  | .local _ .vmem, ⟨12, _⟩ => ⟨S400x10000, .f32⟩
  | .local _ .vmem, ⟨13, _⟩ => ⟨S400x10000, .f32⟩
  | .local _ .vmem, ⟨14, _⟩ => ⟨S10000x64, .f32⟩
  | .local _ .vmem, ⟨15, _⟩ => ⟨S64x64, .f32⟩
  | .local _ .vmem, ⟨16, _⟩ => ⟨S400x64, .f32⟩
  | .local _ .vmem, ⟨17, _⟩ => ⟨S400x64, .f32⟩
  | .local _ .vmem, ⟨18, _⟩ => ⟨S400x10000, .f32⟩
  | .local _ .vmem, ⟨19, _⟩ => ⟨S400x10000, .f32⟩
  | .local _ .vmem, ⟨20, _⟩ => ⟨S10000x64, .f32⟩
  | .local _ .vmem, ⟨21, _⟩ => ⟨S400x64, .f32⟩
  | .local _ .vmem, ⟨22, _⟩ => ⟨S400x64, .f32⟩
  | .local _ .vmem, ⟨23, _⟩ => ⟨S400x10000, .f32⟩
  | .local _ .vmem, ⟨24, _⟩ => ⟨S400x10000, .f32⟩
  | .local _ .vmem, ⟨25, _⟩ => ⟨S10000x64, .f32⟩
  | .local _ .vmem, ⟨26, _⟩ => ⟨S400x64, .f32⟩
  | .local _ .vmem, ⟨27, _⟩ => ⟨S400x64, .f32⟩
  | .local _ .vmem, ⟨28, _⟩ => ⟨S400x32, .bf16⟩
  | .local _ .vmem, ⟨29, _⟩ => ⟨S400x32, .bf16⟩
  | .local _ .vmem, ⟨30, _⟩ => ⟨S32x10000, .bf16⟩
  | .local _ .vmem, ⟨31, _⟩ => ⟨S400x10000, .f32⟩
  | .local _ .vmem, ⟨32, _⟩ => ⟨S400x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg2_0 : Ref sig .tc := ⟨.vmem, 9, rfl⟩
abbrev cc2_stg3_0 : Ref sig .tc := ⟨.vmem, 10, rfl⟩
abbrev cc2_stg3_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg2_0 : Ref sig .tc := ⟨.vmem, 15, rfl⟩
abbrev cc3_stg3_0 : Ref sig .tc := ⟨.vmem, 16, rfl⟩
abbrev cc3_stg3_1 : Ref sig .tc := ⟨.vmem, 17, rfl⟩
abbrev cc4_stg0_0 : Ref sig .tc := ⟨.vmem, 18, rfl⟩
abbrev cc4_stg0_1 : Ref sig .tc := ⟨.vmem, 19, rfl⟩
abbrev cc4_stg1_0 : Ref sig .tc := ⟨.vmem, 20, rfl⟩
abbrev cc4_stg2_0 : Ref sig .tc := ⟨.vmem, 21, rfl⟩
abbrev cc4_stg2_1 : Ref sig .tc := ⟨.vmem, 22, rfl⟩
abbrev cc5_stg0_0 : Ref sig .tc := ⟨.vmem, 23, rfl⟩
abbrev cc5_stg0_1 : Ref sig .tc := ⟨.vmem, 24, rfl⟩
abbrev cc5_stg1_0 : Ref sig .tc := ⟨.vmem, 25, rfl⟩
abbrev cc5_stg2_0 : Ref sig .tc := ⟨.vmem, 26, rfl⟩
abbrev cc5_stg2_1 : Ref sig .tc := ⟨.vmem, 27, rfl⟩
abbrev cc6_stg0_0 : Ref sig .tc := ⟨.vmem, 28, rfl⟩
abbrev cc6_stg0_1 : Ref sig .tc := ⟨.vmem, 29, rfl⟩
abbrev cc6_stg1_0 : Ref sig .tc := ⟨.vmem, 30, rfl⟩
abbrev cc6_stg2_0 : Ref sig .tc := ⟨.vmem, 31, rfl⟩
abbrev cc6_stg2_1 : Ref sig .tc := ⟨.vmem, 32, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc2_sem0_0 : DmaSem sig := 6
abbrev cc2_sem0_1 : DmaSem sig := 7
abbrev cc2_sem1_0 : DmaSem sig := 8
abbrev cc2_sem2_0 : DmaSem sig := 9
abbrev cc2_sem3_0 : DmaSem sig := 10
abbrev cc2_sem3_1 : DmaSem sig := 11
abbrev cc3_sem0_0 : DmaSem sig := 12
abbrev cc3_sem0_1 : DmaSem sig := 13
abbrev cc3_sem1_0 : DmaSem sig := 14
abbrev cc3_sem2_0 : DmaSem sig := 15
abbrev cc3_sem3_0 : DmaSem sig := 16
abbrev cc3_sem3_1 : DmaSem sig := 17
abbrev cc4_sem0_0 : DmaSem sig := 18
abbrev cc4_sem0_1 : DmaSem sig := 19
abbrev cc4_sem1_0 : DmaSem sig := 20
abbrev cc4_sem2_0 : DmaSem sig := 21
abbrev cc4_sem2_1 : DmaSem sig := 22
abbrev cc5_sem0_0 : DmaSem sig := 23
abbrev cc5_sem0_1 : DmaSem sig := 24
abbrev cc5_sem1_0 : DmaSem sig := 25
abbrev cc5_sem2_0 : DmaSem sig := 26
abbrev cc5_sem2_1 : DmaSem sig := 27
abbrev cc6_sem0_0 : DmaSem sig := 28
abbrev cc6_sem0_1 : DmaSem sig := 29
abbrev cc6_sem1_0 : DmaSem sig := 30
abbrev cc6_sem2_0 : DmaSem sig := 31
abbrev cc6_sem2_1 : DmaSem sig := 32

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := .none

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S10000x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x10000 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x10000 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10000x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S400x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S400x32 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x10000 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S400x10000 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  concatenates_S64x32_S64x32_S64x64_d1 : Shape.Concatenates [S64x32, S64x32] S64x64 1
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  inb_S400x10000_S400x10000_0_0 : ∀ a, (![0, 0] : Fin 2 → Nat) a + S400x10000.size a ≤ S400x10000.size a
  h_S400x10000 : 0 < S400x10000.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S400x64_S400x64_0_0 : ∀ a, (![0, 0] : Fin 2 → Nat) a + S400x64.size a ≤ S400x64.size a
  h_S400x64 : 0 < S400x64.numel
  slices_S10000x64_S10000x32_0_0 : S10000x64.Slices ![0, 0] S10000x32
  slices_S10000x64_S10000x32_0_32 : S10000x64.Slices ![0, 32] S10000x32
  bitsLt_bf16_f32 : FTy.bits .bf16 < FTy.bits .f32
  transposes_S10000x32_S32x10000_1_0 : S10000x32.Transposes [1, 0] S32x10000
  inb_S400x32_S400x32_0_0 : ∀ a, (![0, 0] : Fin 2 → Nat) a + S400x32.size a ≤ S400x32.size a
  h_S400x32 : 0 < S400x32.numel
  shapeCasts_S400x32_S400x32 : S400x32.ShapeCasts S400x32
  inb_S32x10000_S32x10000_0_0 : ∀ a, (![0, 0] : Fin 2 → Nat) a + S32x10000.size a ≤ S32x10000.size a
  h_S32x10000 : 0 < S32x10000.numel
  shapeCasts_S32x10000_S32x10000 : S32x10000.ShapeCasts S32x10000
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S64x64_S400x64_1_0_0_1_n_n_wf : DotDims.WF S400x64 S64x64 S400x64 [1] [0] [0] [1] [] []
  dot_S400x32_S32x10000_S400x10000_1_0_0_1_n_n_wf : DotDims.WF S400x32 S32x10000 S400x10000 [1] [0] [0] [1] [] []
  hstage0_0 : ∀ j, (stage0_0 j).IsWhole
  hstage0_1 : ∀ j, (stage0_1 j).IsWhole
  hstage0_2 : ∀ j, (stage0_2 j).IsWhole
  hstage1_0 : ∀ j, (stage1_0 j).IsWhole
  hstage1_1 : ∀ j, (stage1_1 j).IsWhole
  hstage1_2 : ∀ j, (stage1_2 j).IsWhole
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .f32 = 32 ∨ (Rect.block (s := S10000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x64.size a ≤ S10000x64.size a
  hwx2_3 : ∀ i : grid2.Coords, EltTy.bits .f32 = 32 ∨ (Rect.block (s := S10000x64) S400x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .f32 = 32 ∨ (Rect.block (s := S10000x10000) S400x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S10000x64.size a
  hwx3_1 : ∀ i : grid3.Coords, EltTy.bits .f32 = 32 ∨ (Rect.block (s := S10000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x64.size a ≤ S10000x64.size a
  hwx3_3 : ∀ i : grid3.Coords, EltTy.bits .f32 = 32 ∨ (Rect.block (s := S10000x64) S400x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x10000.size a ≤ S10000x10000.size a
  hwx4_0 : ∀ i : grid4.Coords, EltTy.bits .f32 = 32 ∨ (Rect.block (s := S10000x10000) S400x10000.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S10000x64.size a
  hwx4_1 : ∀ i : grid4.Coords, EltTy.bits .f32 = 32 ∨ (Rect.block (s := S10000x64) S10000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x64.size a ≤ S10000x64.size a
  hwx4_2 : ∀ i : grid4.Coords, EltTy.bits .f32 = 32 ∨ (Rect.block (s := S10000x64) S400x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x10000.size a ≤ S10000x10000.size a
  hwx5_0 : ∀ i : grid5.Coords, EltTy.bits .f32 = 32 ∨ (Rect.block (s := S10000x10000) S400x10000.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S10000x64.size a
  hwx5_1 : ∀ i : grid5.Coords, EltTy.bits .f32 = 32 ∨ (Rect.block (s := S10000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S400x64.size a ≤ S10000x64.size a
  hwx5_2 : ∀ i : grid5.Coords, EltTy.bits .f32 = 32 ∨ (Rect.block (s := S10000x64) S400x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S400x32.size a ≤ S10000x32.size a
  hwx6_0 : ∀ i : grid6.Coords, EltTy.bits .bf16 = 32 ∨ (Rect.block (s := S10000x32) S400x32.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x10000.size a ≤ S32x10000.size a
  hwx6_1 : ∀ i : grid6.Coords, EltTy.bits .bf16 = 32 ∨ (Rect.block (s := S32x10000) S32x10000.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S400x10000.size a ≤ S10000x10000.size a
  hwx6_2 : ∀ i : grid6.Coords, EltTy.bits .f32 = 32 ∨ (Rect.block (s := S10000x10000) S400x10000.size (cc6_transform_2 i) (hinb6_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf
def dot_S400x32_S32x10000_S400x10000_1_0_0_1_n_n : DotDims S400x32 S32x10000 S400x10000 where
  lhsContracting := [1]
  rhsContracting := [0]
  lhsNonContracting := [0]
  rhsNonContracting := [1]
  lhsBatch := []
  rhsBatch := []
  wf := dot_S400x32_S32x10000_S400x10000_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg4) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.whole (Memref.whole main_arg1) false false (stage1_0 0) (sem1_0 0) (Memref.isWhole_whole _) (hstage1_0 0)

abbrev win1_1 : Pipeline.Window sig grid1 :=
  Pipeline.Window.whole (Memref.whole main_arg4) false false (stage1_1 0) (sem1_1 0) (Memref.isWhole_whole _) (hstage1_1 0)

abbrev win1_2 : Pipeline.Window sig grid1 :=
  Pipeline.Window.whole (Memref.whole main_v2) true false (stage1_2 0) (sem1_2 0) (Memref.isWhole_whole _) (hstage1_2 0)

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v0) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S400x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg3) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S10000x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v0) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v4) S400x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg2) S400x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3) S10000x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v5) S400x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_arg3) S400x10000.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v4) S10000x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v6) S400x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v11) S400x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v13) S32x10000.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v14) S400x10000.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64x32 : Shape := ⟨2, ![64, 32]⟩
abbrev S10000x64 : Shape := ⟨2, ![10000, 64]⟩
abbrev S_ : Shape := ⟨0, ![]⟩
abbrev S10000x32 : Shape := ⟨2, ![10000, 32]⟩
abbrev S32x10000 : Shape := ⟨2, ![32, 10000]⟩

abbrev nBuf : Space → Nat
  | .hbm => 27
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x10000, .f32⟩
  | .hbm, ⟨3, _⟩ => ⟨S10000x10000, .f32⟩
  | .hbm, ⟨4, _⟩ => ⟨S128x64, .f32⟩
  | .hbm, ⟨5, _⟩ => ⟨S64x32, .f32⟩
  | .hbm, ⟨6, _⟩ => ⟨S64x32, .f32⟩
  | .hbm, ⟨7, _⟩ => ⟨S10000x64, .f32⟩
  | .hbm, ⟨8, _⟩ => ⟨S10000x64, .f32⟩
  | .hbm, ⟨9, _⟩ => ⟨S_, .f32⟩
  | .hbm, ⟨10, _⟩ => ⟨S10000x64, .f32⟩
  | .hbm, ⟨11, _⟩ => ⟨S10000x64, .f32⟩
  | .hbm, ⟨12, _⟩ => ⟨S10000x32, .f32⟩
  | .hbm, ⟨13, _⟩ => ⟨S10000x32, .f32⟩
  | .hbm, ⟨14, _⟩ => ⟨S10000x32, .f32⟩
  | .hbm, ⟨15, _⟩ => ⟨S10000x32, .f32⟩
  | .hbm, ⟨16, _⟩ => ⟨S10000x64, .f32⟩
  | .hbm, ⟨17, _⟩ => ⟨S10000x64, .f32⟩
  | .hbm, ⟨18, _⟩ => ⟨S_, .f32⟩
  | .hbm, ⟨19, _⟩ => ⟨S10000x64, .f32⟩
  | .hbm, ⟨20, _⟩ => ⟨S10000x64, .f32⟩
  | .hbm, ⟨21, _⟩ => ⟨S10000x32, .f32⟩
  | .hbm, ⟨22, _⟩ => ⟨S10000x32, .f32⟩
  | .hbm, ⟨23, _⟩ => ⟨S10000x32, .f32⟩
  | .hbm, ⟨24, _⟩ => ⟨S10000x32, .f32⟩
  | .hbm, ⟨25, _⟩ => ⟨S32x10000, .f32⟩
  | .hbm, ⟨26, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_cst : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_cst : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  bcast_S_S10000x64 : S_.BroadcastsInDim S10000x64 (![] : Fin 0 → Fin S10000x64.rank)
  transposes_S10000x32_S32x10000_1_0 : S10000x32.Transposes [1, 0] S32x10000
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x32_S10000x32_1_0_0_1_n_n_wf : DotDims.WF S10000x64 S64x32 S10000x32 [1] [0] [0] [1] [] []
  dot_S10000x10000_S10000x32_S10000x32_1_0_0_1_n_n_wf : DotDims.WF S10000x10000 S10000x32 S10000x32 [1] [0] [0] [1] [] []
  dot_S10000x32_S32x10000_S10000x10000_1_0_0_1_n_n_wf : DotDims.WF S10000x32 S32x10000 S10000x10000 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x10000_S10000x10000_1_0_0_1_n_n : DotDims S10000x32 S32x10000 S10000x10000 where
  lhsContracting := [1]
  rhsContracting := [0]
  lhsNonContracting := [0]
  rhsNonContracting := [1]
  lhsBatch := []
  rhsBatch := []
  wf := dot_S10000x32_S32x10000_S10000x10000_1_0_0_1_n_n_wf

class Facts : Prop extends Facts₀ where

variable [Facts]
-- ==== Proof.KernelRun.lean ====
/-
  The kernel program's run, with its memory at the end named.

  The program is a chain of segments: one host stretch (the two 64×32 weight matrices laid side by side), six
  kernel regions (two feature products, two first propagation passes, two second ones), a second host stretch
  (the four column halves, a transpose and two format changes) and a seventh region (the decoder's product). Each
  segment takes the contents of the core's buffers at its entry to their contents at its exit; composing them from
  the launch memory gives the contents at the return. Here the chain is run once more with that conclusion kept
  whole: after every weakly fair execution each buffer that outlives the regions holds the last boundary's
  contents, from which the value modules read every result.
-/
import proofs.«161427_g53214644798189_cont_9to1_m_710_6_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every buffer that outlives the regions at the
    last boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- A result buffer of @main is among those buffers. -/
theorem at_result (r : PUnit × MemSt nD τ sig (Elt F))
    (h : ∀ c : Dev nD, ∀ b ∈ Pipeline.ucRefs τ sig, r.2.mem (((c : Thread nD τ)).1, b) = W9 m ρ c b)
    (c : Dev nD) (b : Ref sig .tc) (hb : ¬ (Proc.devRef .tc b : DevRef τ sig).isScoped) :
    r.2.mem (((c : Thread nD τ)).1, Proc.devRef .tc b) = W9 m ρ c (Proc.devRef .tc b) :=
  h c _ (mem_uc b hb)

end Cert.KernelIdeal.RunValue

end
-- ==== Proof.LibDotSum.lean ====
/-
  A matrix product with ONE contracted axis, read at an index as a plain sum over that axis: for the host's
  product and for the matrix unit's product into a zero accumulator, both on the extended reals. The caller names the
  two operands' indices at contraction position k; the lemma re-indexes the sum by the axis's one coordinate.
-/
import Idealize.ShloMosaic.Lib.ValueIdx
import Idealize.ShloMosaic.Lib.KernelVsHost
import Idealize.ShloMosaic.PureOps.Ideal.Laws

namespace Idealize.ShloMosaic.DotSum

open Idealize.ShloMosaic Idealize.ShloMosaic.ValueIdx

/-- The host's product at an output index is the sum over the contracted axis of the operands' products, each read
    where the dimension numbers put it. -/
theorem dotGeneral_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    Host.dotGeneral d none x w j = ∑ k : Fin K, x (li k) * w (ri k) := by
  show FloatOps.dotGeneral d none _ x w j = _
  rw [Ideal.dotGeneral_apply, ← Equiv.sum_comp (contrEquiv1 d K hr hs).symm]
  exact Finset.sum_congr rfl fun k _ => by rw [hl k, hw k]

/-- The matrix unit's product into a zero accumulator likewise (its operands may be of a narrower format: on the
    extended reals a format is no restriction). -/
theorem matmul_zero_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d none x w (constant so .f32 0x00000000#32) j = ∑ k : Fin K, x (li k) * w (ri k) := by
  rw [matmul_zero_eq_dotGeneral]
  exact dotGeneral_eq_sum d K hr hs x w j li ri hl hw

end Idealize.ShloMosaic.DotSum
-- ==== Proof.LibPlainProduct.lean ====
/-
  The plain matrix product — an [M, K] matrix times a [K, N] matrix, the left operand's axis 1 contracted against the
  right operand's axis 0, no batch axis — read at an entry (p, q) as the sum over k of x(p, k) · w(k, q), on the extended
  reals: for the host's product and for the matrix unit's product into a zero accumulator. The operands' indices at
  contraction position k are computed once here, for every M, K, N, so a caller only names its entry.
-/
import proofs.«161427_g53214644798189_cont_9to1_m_710_6_alg».proof.Proof.LibDotSum

namespace Idealize.ShloMosaic.PlainProduct

open Idealize.ShloMosaic Idealize.ShloMosaic.ValueIdx

variable (M K N : Nat)

theorem contr_rank : (DotDims.plain M K N).contr.rank = 1 := rfl

theorem contr_size : (DotDims.plain M K N).contr.size ⟨0, by rw [contr_rank]; omega⟩ = K := rfl

/-- The left operand is read at row p, column k. -/
theorem lhsIdx_eq (p : Fin M) (q : Fin N) (k : Fin K) :
    (DotDims.plain M K N).lhsIdx (ix2 p q)
      ((contrEquiv1 (DotDims.plain M K N) K (contr_rank M K N) (contr_size M K N)).symm k) = ix2 p k := by
  funext a
  apply Fin.ext
  match a with
  | ⟨0, _⟩ =>
    unfold DotDims.lhsIdx
    split
    · next hb => exact absurd hb List.not_mem_nil
    · split
      · rfl
      · next hn => exact absurd (List.mem_singleton.mpr rfl) hn
  | ⟨1, _⟩ =>
    exact ((DotDims.plain M K N).lhsIdx_val_of_single rfl (ix2 p q) _).trans
      (contrEquiv1_symm_val (DotDims.plain M K N) K (contr_rank M K N) (contr_size M K N) k)

/-- The right operand is read at row k, column q. -/
theorem rhsIdx_eq (p : Fin M) (q : Fin N) (k : Fin K) :
    (DotDims.plain M K N).rhsIdx (ix2 p q)
      ((contrEquiv1 (DotDims.plain M K N) K (contr_rank M K N) (contr_size M K N)).symm k) = ix2 k q := by
  funext a
  apply Fin.ext
  match a with
  | ⟨0, _⟩ =>
    exact ((DotDims.plain M K N).rhsIdx_val_of_single rfl (ix2 p q) _).trans
      (contrEquiv1_symm_val (DotDims.plain M K N) K (contr_rank M K N) (contr_size M K N) k)
  | ⟨1, _⟩ =>
    unfold DotDims.rhsIdx
    split
    · next hb => exact absurd hb List.not_mem_nil
    · split
      · rfl
      · next hn => exact absurd (List.mem_singleton.mpr rfl) hn

/-- The host's plain product at (p, q). -/
theorem dotGeneral_at {φ₁ φ₂ : FTy} (x : FVec Ideal ⟨2, ![M, K]⟩ φ₁) (w : FVec Ideal ⟨2, ![K, N]⟩ φ₂) (p : Fin M) (q : Fin N) :
    Host.dotGeneral (DotDims.plain M K N) none x w (ix2 p q) = ∑ k : Fin K, x (ix2 p k) * w (ix2 k q) :=
  DotSum.dotGeneral_eq_sum (DotDims.plain M K N) K (contr_rank M K N) (contr_size M K N) x w (ix2 p q)
    (fun k => ix2 p k) (fun k => ix2 k q) (lhsIdx_eq M K N p q) (rhsIdx_eq M K N p q)

/-- The matrix unit's plain product into zeros at (p, q). -/
theorem matmul_zero_at {φ₁ φ₂ : FTy} (x : FVec Ideal ⟨2, ![M, K]⟩ φ₁) (w : FVec Ideal ⟨2, ![K, N]⟩ φ₂) (p : Fin M) (q : Fin N) :
    matmul (DotDims.plain M K N) none x w (constant ⟨2, ![M, N]⟩ .f32 0x00000000#32) (ix2 p q)
      = ∑ k : Fin K, x (ix2 p k) * w (ix2 k q) :=
  DotSum.matmul_zero_eq_sum (DotDims.plain M K N) K (contr_rank M K N) (contr_size M K N) x w (ix2 p q)
    (fun k => ix2 p k) (fun k => ix2 k q) (lhsIdx_eq M K N p q) (rhsIdx_eq M K N p q)

end Idealize.ShloMosaic.PlainProduct
-- ==== Proof.Spec.lean ====
/-
  The mathematics both programs compute, on the extended reals, written over functions of two coordinates.

  A graph-convolution encoder applied to each side (adjacency A, features X) of a bipartite graph,
      S = X · W1,   H = max(A · S, 0),   mu = A · (H · W2),   logvar = A · (H · W3),
  and an inner-product decoder  R = mu_out · mu_inᵀ.  Every product is the plain matrix product
  (p, q) ↦ Σ_k x(p, k) · w(k, q).  One program forms H · [W2 | W3] with the two weight matrices laid side by side
  and splits the columns of A · (H · [W2 | W3]) afterwards; the other forms the two products apart. They agree
  entry by entry because a column of a product only ever reads that column of the right factor: no sum is
  rearranged, no factor is moved across a sum, so nothing need be finite.
-/
import Idealize.ShloMosaic.Lib.ValueIdx

noncomputable section

open scoped BigOperators

namespace Cert.Vgae

open Idealize.ShloMosaic Idealize.ShloMosaic.ValueIdx

/-- The number the zero word denotes (the rectifier's floor and nothing else in these programs). -/
abbrev zero32 : EReal := Ideal.ofBits .f32 0x00000000#32

/-- An [m, n] array as a function of its two coordinates. -/
def mat {m n : Nat} {α : Type} (a : (⟨2, ![m, n]⟩ : Shape).Idx → α) : Fin m → Fin n → α := fun p q => a (ix2 p q)

/-- A function of two coordinates as an [m, n] array. -/
def arr {m n : Nat} {α : Type} (f : Fin m → Fin n → α) : (⟨2, ![m, n]⟩ : Shape).Idx → α := fun j => f (j 0) (j 1)

theorem arr_ix2 {m n : Nat} {α : Type} (f : Fin m → Fin n → α) (p : Fin m) (q : Fin n) : arr f (ix2 p q) = f p q := rfl

theorem mat_arr {m n : Nat} {α : Type} (f : Fin m → Fin n → α) : mat (arr f) = f := rfl

theorem arr_mat {m n : Nat} {α : Type} (a : (⟨2, ![m, n]⟩ : Shape).Idx → α) : arr (mat a) = a :=
  funext fun j => (congrArg a (eq_ix2 j)).symm

/-- An array is determined by its entries at (p, q). -/
theorem eq_arr_of_entries {m n : Nat} {α : Type} (a : (⟨2, ![m, n]⟩ : Shape).Idx → α) (f : Fin m → Fin n → α)
    (h : ∀ p q, a (ix2 p q) = f p q) : a = arr f :=
  funext fun j => (congrArg a (eq_ix2 j)).trans (h (j 0) (j 1))

/-- The plain matrix product. -/
def mm {M K N : Nat} (x : Fin M → Fin K → EReal) (w : Fin K → Fin N → EReal) : Fin M → Fin N → EReal :=
  fun p q => ∑ k : Fin K, x p k * w k q

/-- The entrywise maximum with a fixed number (the rectifier when that number is zero). -/
def floorAt {M N : Nat} (z : EReal) (h : Fin M → Fin N → EReal) : Fin M → Fin N → EReal := fun p q => max (h p q) z

/-- The transpose. -/
def tr {M N : Nat} {α : Type} (h : Fin M → Fin N → α) : Fin N → Fin M → α := fun q p => h p q

/-- Columns 0 … 31 of a 64-column matrix. -/
def colsLo {M : Nat} {α : Type} (h : Fin M → Fin 64 → α) : Fin M → Fin 32 → α := fun p q => h p ⟨q.val, by omega⟩

/-- Columns 32 … 63 of a 64-column matrix. -/
def colsHi {M : Nat} {α : Type} (h : Fin M → Fin 64 → α) : Fin M → Fin 32 → α := fun p q => h p ⟨32 + q.val, by omega⟩

/-- Two 32-column matrices side by side. -/
def sideBySide {M : Nat} {α : Type} (a b : Fin M → Fin 32 → α) : Fin M → Fin 64 → α :=
  fun p q => if h : q.val < 32 then a p ⟨q.val, h⟩ else b p ⟨q.val - 32, by omega⟩

theorem colsLo_sideBySide {M : Nat} {α : Type} (a b : Fin M → Fin 32 → α) : colsLo (sideBySide a b) = a := by
  funext p q
  show (if h : q.val < 32 then a p ⟨q.val, h⟩ else b p ⟨q.val - 32, _⟩) = a p q
  rw [dif_pos q.isLt]

theorem colsHi_sideBySide {M : Nat} {α : Type} (a b : Fin M → Fin 32 → α) : colsHi (sideBySide a b) = b := by
  funext p q
  show (if h : 32 + q.val < 32 then a p ⟨32 + q.val, h⟩ else b p ⟨32 + q.val - 32, _⟩) = b p q
  rw [dif_neg (by omega)]
  exact congrArg (b p) (Fin.ext (by show 32 + q.val - 32 = q.val; omega))

/-- A column of a product reads only that column of the right factor. -/
theorem colsLo_mm {M K : Nat} (x : Fin M → Fin K → EReal) (w : Fin K → Fin 64 → EReal) :
    colsLo (mm x w) = mm x (colsLo w) := rfl

theorem colsHi_mm {M K : Nat} (x : Fin M → Fin K → EReal) (w : Fin K → Fin 64 → EReal) :
    colsHi (mm x w) = mm x (colsHi w) := rfl

/-- Rows 400·t … 400·t + 399 of a 10000-row matrix, for t below 25: the rows one grid point works on. -/
def rowsAt {N : Nat} {α : Type} (t : Nat) (ht : t < 25) (h : Fin 10000 → Fin N → α) : Fin 400 → Fin N → α :=
  fun p q => h ⟨t * 400 + p.val, by have := p.isLt; omega⟩ q

/-- The rows of a product are the products of the left factor's rows … -/
theorem rowsAt_mm {K N : Nat} (t : Nat) (ht : t < 25) (x : Fin 10000 → Fin K → EReal) (w : Fin K → Fin N → EReal) :
    rowsAt t ht (mm x w) = mm (rowsAt t ht x) w := rfl

/-- … and the floor is taken row by row. -/
theorem rowsAt_floorAt {N : Nat} (t : Nat) (ht : t < 25) (z : EReal) (h : Fin 10000 → Fin N → EReal) :
    rowsAt t ht (floorAt z h) = floorAt z (rowsAt t ht h) := rfl

/-- Every row lies in the 400-row stretch numbered by its quotient by 400. -/
theorem row_in_stretch (r : Fin 10000) : r.val / 400 < 25 ∧ r.val / 400 * 400 ≤ r.val ∧ r.val < r.val / 400 * 400 + 400 := by
  have := r.isLt
  omega

/-- The hidden layer H = max(A · (X · W1), z). -/
def hidden (z : EReal) (A : Fin 10000 → Fin 10000 → EReal) (X : Fin 10000 → Fin 128 → EReal)
    (W1 : Fin 128 → Fin 64 → EReal) : Fin 10000 → Fin 64 → EReal :=
  floorAt z (mm A (mm X W1))

/-- One head of the encoder: A · (H · W). -/
def head (z : EReal) (A : Fin 10000 → Fin 10000 → EReal) (X : Fin 10000 → Fin 128 → EReal)
    (W1 : Fin 128 → Fin 64 → EReal) (W : Fin 64 → Fin 32 → EReal) : Fin 10000 → Fin 32 → EReal :=
  mm A (mm (hidden z A X W1) W)

/-- Both heads at once, the two weight matrices side by side: A · (H · [W2 | W3]). -/
def heads (z : EReal) (A : Fin 10000 → Fin 10000 → EReal) (X : Fin 10000 → Fin 128 → EReal)
    (W1 : Fin 128 → Fin 64 → EReal) (W2 W3 : Fin 64 → Fin 32 → EReal) : Fin 10000 → Fin 64 → EReal :=
  mm A (mm (hidden z A X W1) (sideBySide W2 W3))

/-- The left half of the fused heads is the first head … -/
theorem colsLo_heads (z : EReal) (A : Fin 10000 → Fin 10000 → EReal) (X : Fin 10000 → Fin 128 → EReal)
    (W1 : Fin 128 → Fin 64 → EReal) (W2 W3 : Fin 64 → Fin 32 → EReal) :
    colsLo (heads z A X W1 W2 W3) = head z A X W1 W2 := by
  unfold heads head
  rw [colsLo_mm, colsLo_mm, colsLo_sideBySide]

/-- … and the right half the second. -/
theorem colsHi_heads (z : EReal) (A : Fin 10000 → Fin 10000 → EReal) (X : Fin 10000 → Fin 128 → EReal)
    (W1 : Fin 128 → Fin 64 → EReal) (W2 W3 : Fin 64 → Fin 32 → EReal) :
    colsHi (heads z A X W1 W2 W3) = head z A X W1 W3 := by
  unfold heads head
  rw [colsHi_mm, colsHi_mm, colsHi_sideBySide]

/-- The decoder: mu_out · mu_inᵀ. -/
def decode (a b : Fin 10000 → Fin 32 → EReal) : Fin 10000 → Fin 10000 → EReal := mm a (tr b)

end Cert.Vgae

end
-- ==== Proof.Pay.lean ====
/-
  What each kernel body stores, entry by entry, on the extended reals.

  Every body loads its blocks whole, multiplies, and stores one block whole. The feature body stores X · W1; a first
  propagation pass stores max(A_t · S, 0) · Wc for its 400 rows A_t of the adjacency (Wc the two weight matrices side by
  side); a second pass stores A_t · G; the decoder body stores Z_t · Zt. A matrix product into a zero accumulator is
  the plain sum over the contracted coordinate, and a change of float format is the identity here, so each stored entry
  is the textbook formula of the loaded blocks' entries.
-/
import proofs.«161427_g53214644798189_cont_9to1_m_710_6_alg».proof.Proof.Gen.KernelIdeal.Skeleton
import proofs.«161427_g53214644798189_cont_9to1_m_710_6_alg».proof.Proof.LibPlainProduct
import proofs.«161427_g53214644798189_cont_9to1_m_710_6_alg».proof.Proof.Spec
import Idealize.ShloMosaic.Lib.Pipeline.Value

noncomputable section

open scoped BigOperators

namespace Cert.Vgae

open Cert.KernelIdeal Cert.KernelIdeal.Gen
open Idealize.ShloMosaic Idealize.ShloMosaic.ValueIdx

/-- The feature body: (X · W1)(p, q). -/
theorem support0_at (x0 : Vec Ideal S10000x128 .f32) (x1 : Vec Ideal S128x64 .f32) (p : Fin 10000) (q : Fin 64) :
    k0_pay1 (F := Ideal) x0 x1 (ix2 p q) = mm (mat x0) (mat x1) p q := by
  unfold k0_pay1
  exact PlainProduct.matmul_zero_at 10000 128 64 x0 x1 p q

theorem support1_at (x0 : Vec Ideal S10000x128 .f32) (x1 : Vec Ideal S128x64 .f32) (p : Fin 10000) (q : Fin 64) :
    k1_pay1 (F := Ideal) x0 x1 (ix2 p q) = mm (mat x0) (mat x1) p q := by
  unfold k1_pay1
  exact PlainProduct.matmul_zero_at 10000 128 64 x0 x1 p q

/-- A first pass: (max(A_t · S, 0) · Wc)(p, q). -/
theorem pass1_2_at (x0 : Vec Ideal S400x10000 .f32) (x1 : Vec Ideal S10000x64 .f32) (x2 : Vec Ideal S64x64 .f32)
    (p : Fin 400) (q : Fin 64) :
    k2_pay1 (F := Ideal) x0 x1 x2 (ix2 p q) = mm (floorAt zero32 (mm (mat x0) (mat x1))) (mat x2) p q := by
  unfold k2_pay1
  simp only [shapeCast_self]
  refine (PlainProduct.matmul_zero_at 400 64 64 _ _ p q).trans ?_
  refine Finset.sum_congr rfl fun k _ => ?_
  exact congrArg (fun u : EReal => max u zero32 * x2 (ix2 k q)) (PlainProduct.matmul_zero_at 400 10000 64 x0 x1 p k)

theorem pass1_3_at (x0 : Vec Ideal S400x10000 .f32) (x1 : Vec Ideal S10000x64 .f32) (x2 : Vec Ideal S64x64 .f32)
    (p : Fin 400) (q : Fin 64) :
    k3_pay1 (F := Ideal) x0 x1 x2 (ix2 p q) = mm (floorAt zero32 (mm (mat x0) (mat x1))) (mat x2) p q := by
  unfold k3_pay1
  simp only [shapeCast_self]
  refine (PlainProduct.matmul_zero_at 400 64 64 _ _ p q).trans ?_
  refine Finset.sum_congr rfl fun k _ => ?_
  exact congrArg (fun u : EReal => max u zero32 * x2 (ix2 k q)) (PlainProduct.matmul_zero_at 400 10000 64 x0 x1 p k)

/-- A second pass: (A_t · G)(p, q). -/
theorem pass2_4_at (x0 : Vec Ideal S400x10000 .f32) (x1 : Vec Ideal S10000x64 .f32) (p : Fin 400) (q : Fin 64) :
    k4_pay1 (F := Ideal) x0 x1 (ix2 p q) = mm (mat x0) (mat x1) p q := by
  unfold k4_pay1
  simp only [shapeCast_self]
  exact PlainProduct.matmul_zero_at 400 10000 64 x0 x1 p q

theorem pass2_5_at (x0 : Vec Ideal S400x10000 .f32) (x1 : Vec Ideal S10000x64 .f32) (p : Fin 400) (q : Fin 64) :
    k5_pay1 (F := Ideal) x0 x1 (ix2 p q) = mm (mat x0) (mat x1) p q := by
  unfold k5_pay1
  simp only [shapeCast_self]
  exact PlainProduct.matmul_zero_at 400 10000 64 x0 x1 p q

/-- The decoder body: (Z_t · Zt)(p, q), its operands of the narrower format. -/
theorem recon_at (x0 : Vec Ideal S400x32 .bf16) (x1 : Vec Ideal S32x10000 .bf16) (p : Fin 400) (q : Fin 10000) :
    k6_pay1 (F := Ideal) x0 x1 (ix2 p q) = mm (mat x0) (mat x1) p q := by
  unfold k6_pay1
  simp only [shapeCast_self]
  exact PlainProduct.matmul_zero_at 400 32 10000 x0 x1 p q

end Cert.Vgae

end
-- ==== Proof.Region0.lean ====
/-
  The feature product of the first side, as one array.

  This region has a single grid point: it loads the whole feature matrix X and the whole first weight matrix W1 and
  stores the whole product. A matrix product into a zero accumulator is, entry by entry, the sum over the contracted
  coordinate of the operands' products, so after the one write-back the output array IS X · W1 of the arrays the
  region found on entry.
-/
import proofs.«161427_g53214644798189_cont_9to1_m_710_6_alg».proof.Proof.Gen.KernelIdeal.Frame
import proofs.«161427_g53214644798189_cont_9to1_m_710_6_alg».proof.Proof.Pay
import Idealize.ShloMosaic.Lib.Pipeline.Value

set_option maxRecDepth 16384

noncomputable section

namespace Cert.KernelIdeal.Region0

open Cert.KernelIdeal Cert.KernelIdeal.Gen Cert.Vgae
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps at the one grid point: every window's block is its whole array. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The arrays the region finds on entry. -/
abbrev feats (c : Dev nD) : S10000x128.Idx → EReal := V c main_arg0
abbrev w1 (c : Dev nD) : S128x64.Idx → EReal := V c main_arg4

/-- What the output array holds after the region. -/
def G (c : Dev nD) : S10000x64.Idx → EReal :=
  arr (mm (mat (feats V c)) (mat (w1 V c)))

/-- The one point's block of the feature matrix is all of it. -/
theorem read0 (c : Dev nD) (t : Fin cfg0.N) :
    mat (m := 10000) (n := 128) (α := EReal) (iblk0 V c 0 t) = mat (feats V c) := by
  obtain ⟨e00, e01, -⟩ := idx_facts t
  funext p j
  show V c main_arg0 (((cfg0.win 0).blk t).view.emb (ix2 p j)) = V c main_arg0 (ix2 p j)
  refine congrArg _ (funext fun a => Fin.ext ?_)
  match a with
  | ⟨0, _⟩ => show win0_0.index t (0 : Fin 2) * 10000 + 1 * p.val = p.val; omega
  | ⟨1, _⟩ => show win0_0.index t (1 : Fin 2) * 128 + 1 * j.val = j.val; omega

/-- The one point's block of the weight matrix is all of it. -/
theorem read1 (c : Dev nD) (t : Fin cfg0.N) :
    mat (m := 128) (n := 64) (α := EReal) (iblk0 V c 1 t) = mat (w1 V c) := by
  obtain ⟨-, -, e10, e11, -⟩ := idx_facts t
  funext p j
  show V c main_arg4 (((cfg0.win 1).blk t).view.emb (ix2 p j)) = V c main_arg4 (ix2 p j)
  refine congrArg _ (funext fun a => Fin.ext ?_)
  match a with
  | ⟨0, _⟩ => show win0_1.index t (0 : Fin 2) * 128 + 1 * p.val = p.val; omega
  | ⟨1, _⟩ => show win0_1.index t (1 : Fin 2) * 64 + 1 * j.val = j.val; omega

/-- The one point's block of any output-shaped array is all of it. -/
theorem read2 (g : S10000x64.Idx → EReal) (t : Fin cfg0.N) :
    mat (m := 10000) (n := 64) (α := EReal) (((cfg0.win 2).blk t).view.read (Elt Ideal) g) = mat g := by
  obtain ⟨-, -, -, -, e20, e21⟩ := idx_facts t
  funext p j
  show g (((cfg0.win 2).blk t).view.emb (ix2 p j)) = g (ix2 p j)
  refine congrArg _ (funext fun a => Fin.ext ?_)
  match a with
  | ⟨0, _⟩ => show win0_2.index t (0 : Fin 2) * 10000 + 1 * p.val = p.val; omega
  | ⟨1, _⟩ => show win0_2.index t (1 : Fin 2) * 64 + 1 * j.val = j.val; omega

/-- What the one point writes back is all of G. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  show k0_pay1 (iblk0 V c 0 t) (iblk0 V c 1 t) = ((cfg0.win 2).blk t).view.read (Elt Ideal) (G V c)
  refine (eq_arr_of_entries (m := 10000) (n := 64) _ _ fun p q => support0_at _ _ p q).trans ?_
  refine ((eq_arr_of_entries (m := 10000) (n := 64) _ _ fun p q => ?_).symm)
  show mat (m := 10000) (n := 64) (α := EReal) (((cfg0.win 2).blk t).view.read (Elt Ideal) (G V c)) p q = _
  rw [read2, read0, read1]
  rfl

/-- An index of the output is in point t's block iff each coordinate is in the block's range on its axis. -/
theorem mem_blk (t : Fin cfg0.N) (i : S10000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v1).slice (win0_2.rect t)).set ↔ _
  rw [View.set_slice_whole, Rect.mem_set_unit]
  exact Iff.rfl

/-- The one block covers the output. -/
theorem cover (i : S10000x64.Idx) : ∃ t : Fin cfg0.N, (cfg0.win 2).flush t = true ∧ i ∈ ((cfg0.win 2).blk t).view.set := by
  have hi0 : (i 0).val < 10000 := (i 0).isLt
  have hi1 : (i 1).val < 64 := (i 1).isLt
  obtain ⟨-, -, -, -, e20, e21⟩ := idx_facts t0_0
  refine ⟨t0_0, flush0_2 t0_0, ?_⟩
  rw [mem_blk]
  intro a
  match a with
  | ⟨0, _⟩ => show win0_2.index t0_0 (0 : Fin 2) * 10000 ≤ (i 0).val ∧ (i 0).val < win0_2.index t0_0 (0 : Fin 2) * 10000 + 10000; omega
  | ⟨1, _⟩ => show win0_2.index t0_0 (1 : Fin 2) * 64 ≤ (i 1).val ∧ (i 1).val < win0_2.index t0_0 (1 : Fin 2) * 64 + 64; omega

/-- After the region the output array is X · W1 of the arrays found on entry. -/
theorem final (c : Dev nD) : (dat0 V c).arrAt 2 cfg0.N = G V c :=
  (dat0 V c).arrAt_eq_of_cover 2 (G V c) (fun t _ => flushed_eq V c t) cover

/-- The same with the arrays found on entry given by name. -/
theorem final_of (c : Dev nD) (x0 : S10000x128.Idx → EReal) (x1 : S128x64.Idx → EReal) (h0 : V c main_arg0 = x0) (h1 : V c main_arg4 = x1) :
    (dat0 V c).arrAt 2 cfg0.N = arr (mm (mat x0) (mat x1)) := by
  subst h0
  subst h1
  exact final V c

end Cert.KernelIdeal.Region0

end
-- ==== Proof.Region1.lean ====
/-
  The feature product of the second side, as one array.

  This region has a single grid point: it loads the whole feature matrix X and the whole first weight matrix W1 and
  stores the whole product. A matrix product into a zero accumulator is, entry by entry, the sum over the contracted
  coordinate of the operands' products, so after the one write-back the output array IS X · W1 of the arrays the
  region found on entry.
-/
import proofs.«161427_g53214644798189_cont_9to1_m_710_6_alg».proof.Proof.Gen.KernelIdeal.Frame
import proofs.«161427_g53214644798189_cont_9to1_m_710_6_alg».proof.Proof.Pay
import Idealize.ShloMosaic.Lib.Pipeline.Value

set_option maxRecDepth 16384

noncomputable section

namespace Cert.KernelIdeal.Region1

open Cert.KernelIdeal Cert.KernelIdeal.Gen Cert.Vgae
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps at the one grid point: every window's block is its whole array. -/
theorem idx_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- The arrays the region finds on entry. -/
abbrev feats (c : Dev nD) : S10000x128.Idx → EReal := V c main_arg1
abbrev w1 (c : Dev nD) : S128x64.Idx → EReal := V c main_arg4

/-- What the output array holds after the region. -/
def G (c : Dev nD) : S10000x64.Idx → EReal :=
  arr (mm (mat (feats V c)) (mat (w1 V c)))

/-- The one point's block of the feature matrix is all of it. -/
theorem read0 (c : Dev nD) (t : Fin cfg1.N) :
    mat (m := 10000) (n := 128) (α := EReal) (iblk1 V c 0 t) = mat (feats V c) := by
  obtain ⟨e00, e01, -⟩ := idx_facts t
  funext p j
  show V c main_arg1 (((cfg1.win 0).blk t).view.emb (ix2 p j)) = V c main_arg1 (ix2 p j)
  refine congrArg _ (funext fun a => Fin.ext ?_)
  match a with
  | ⟨0, _⟩ => show win1_0.index t (0 : Fin 2) * 10000 + 1 * p.val = p.val; omega
  | ⟨1, _⟩ => show win1_0.index t (1 : Fin 2) * 128 + 1 * j.val = j.val; omega

/-- The one point's block of the weight matrix is all of it. -/
theorem read1 (c : Dev nD) (t : Fin cfg1.N) :
    mat (m := 128) (n := 64) (α := EReal) (iblk1 V c 1 t) = mat (w1 V c) := by
  obtain ⟨-, -, e10, e11, -⟩ := idx_facts t
  funext p j
  show V c main_arg4 (((cfg1.win 1).blk t).view.emb (ix2 p j)) = V c main_arg4 (ix2 p j)
  refine congrArg _ (funext fun a => Fin.ext ?_)
  match a with
  | ⟨0, _⟩ => show win1_1.index t (0 : Fin 2) * 128 + 1 * p.val = p.val; omega
  | ⟨1, _⟩ => show win1_1.index t (1 : Fin 2) * 64 + 1 * j.val = j.val; omega

/-- The one point's block of any output-shaped array is all of it. -/
theorem read2 (g : S10000x64.Idx → EReal) (t : Fin cfg1.N) :
    mat (m := 10000) (n := 64) (α := EReal) (((cfg1.win 2).blk t).view.read (Elt Ideal) g) = mat g := by
  obtain ⟨-, -, -, -, e20, e21⟩ := idx_facts t
  funext p j
  show g (((cfg1.win 2).blk t).view.emb (ix2 p j)) = g (ix2 p j)
  refine congrArg _ (funext fun a => Fin.ext ?_)
  match a with
  | ⟨0, _⟩ => show win1_2.index t (0 : Fin 2) * 10000 + 1 * p.val = p.val; omega
  | ⟨1, _⟩ => show win1_2.index t (1 : Fin 2) * 64 + 1 * j.val = j.val; omega

/-- What the one point writes back is all of G. -/
theorem flushed_eq (c : Dev nD) (t : Fin cfg1.N) :
    (dat1 V c).flushed 2 t = ((cfg1.win 2).blk t).view.read (Elt Ideal) (G V c) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x64) hz]
  show k1_pay1 (iblk1 V c 0 t) (iblk1 V c 1 t) = ((cfg1.win 2).blk t).view.read (Elt Ideal) (G V c)
  refine (eq_arr_of_entries (m := 10000) (n := 64) _ _ fun p q => support1_at _ _ p q).trans ?_
  refine ((eq_arr_of_entries (m := 10000) (n := 64) _ _ fun p q => ?_).symm)
  show mat (m := 10000) (n := 64) (α := EReal) (((cfg1.win 2).blk t).view.read (Elt Ideal) (G V c)) p q = _
  rw [read2, read0, read1]
  rfl

/-- An index of the output is in point t's block iff each coordinate is in the block's range on its axis. -/
theorem mem_blk (t : Fin cfg1.N) (i : S10000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v2).slice (win1_2.rect t)).set ↔ _
  rw [View.set_slice_whole, Rect.mem_set_unit]
  exact Iff.rfl

/-- The one block covers the output. -/
theorem cover (i : S10000x64.Idx) : ∃ t : Fin cfg1.N, (cfg1.win 2).flush t = true ∧ i ∈ ((cfg1.win 2).blk t).view.set := by
  have hi0 : (i 0).val < 10000 := (i 0).isLt
  have hi1 : (i 1).val < 64 := (i 1).isLt
  obtain ⟨-, -, -, -, e20, e21⟩ := idx_facts t1_0
  refine ⟨t1_0, flush1_2 t1_0, ?_⟩
  rw [mem_blk]
  intro a
  match a with
  | ⟨0, _⟩ => show win1_2.index t1_0 (0 : Fin 2) * 10000 ≤ (i 0).val ∧ (i 0).val < win1_2.index t1_0 (0 : Fin 2) * 10000 + 10000; omega
  | ⟨1, _⟩ => show win1_2.index t1_0 (1 : Fin 2) * 64 ≤ (i 1).val ∧ (i 1).val < win1_2.index t1_0 (1 : Fin 2) * 64 + 64; omega

/-- After the region the output array is X · W1 of the arrays found on entry. -/
theorem final (c : Dev nD) : (dat1 V c).arrAt 2 cfg1.N = G V c :=
  (dat1 V c).arrAt_eq_of_cover 2 (G V c) (fun t _ => flushed_eq V c t) cover

/-- The same with the arrays found on entry given by name. -/
theorem final_of (c : Dev nD) (x0 : S10000x128.Idx → EReal) (x1 : S128x64.Idx → EReal) (h0 : V c main_arg1 = x0) (h1 : V c main_arg4 = x1) :
    (dat1 V c).arrAt 2 cfg1.N = arr (mm (mat x0) (mat x1)) := by
  subst h0
  subst h1
  exact final V c

end Cert.KernelIdeal.Region1

end
-- ==== Proof.Region2.lean ====
/-
  The first propagation pass on the first side, as one array.

  The pass runs 25 grid points. Point t loads rows 400t … 400t+399 of the adjacency A, the whole feature product S and
  the whole side-by-side weight matrix Wc, and writes back rows 400t … 400t+399 of its output. Those rows are
  max(A_t · S, 0) · Wc, which are exactly rows 400t … 400t+399 of max(A · S, 0) · Wc: a row of a product reads only that
  row of the left factor. The 25 row stretches tile the 10000 rows, so after the last write-back the output array IS
  max(A · S, 0) · Wc of the arrays the region found on entry.
-/
import proofs.«161427_g53214644798189_cont_9to1_m_710_6_alg».proof.Proof.Gen.KernelIdeal.Frame
import proofs.«161427_g53214644798189_cont_9to1_m_710_6_alg».proof.Proof.Pay
import Idealize.ShloMosaic.Lib.Pipeline.Value

set_option maxRecDepth 16384

noncomputable section

namespace Cert.KernelIdeal.Region2

open Cert.KernelIdeal Cert.KernelIdeal.Gen Cert.Vgae
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the adjacency and the output move down one 400-row block per point, the two whole operands stay put. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem lt25 (t : Fin cfg2.N) : t.val < 25 := lt_of_lt_of_eq t.isLt N_2

/-- The arrays the region finds on entry. -/
abbrev adj (c : Dev nD) : S10000x10000.Idx → EReal := V c main_arg2
abbrev feat (c : Dev nD) : S10000x64.Idx → EReal := V c main_v1
abbrev wcat (c : Dev nD) : S64x64.Idx → EReal := V c main_v0

/-- What the output array holds after the region. -/
def G (c : Dev nD) : S10000x64.Idx → EReal :=
  arr (mm (floorAt zero32 (mm (mat (adj V c)) (mat (feat V c)))) (mat (wcat V c)))

/-- Point t's block of the adjacency is its rows 400t … 400t+399. -/
theorem read0 (c : Dev nD) (t : Fin cfg2.N) :
    mat (m := 400) (n := 10000) (α := EReal) (iblk2 V c 0 t) = rowsAt t.val (lt25 t) (mat (adj V c)) := by
  obtain ⟨e00, e01, -⟩ := idx_facts t
  funext p j
  show V c main_arg2 (((cfg2.win 0).blk t).view.emb (ix2 p j)) = V c main_arg2 (ix2 ⟨t.val * 400 + p.val, _⟩ j)
  refine congrArg _ (funext fun a => Fin.ext ?_)
  match a with
  | ⟨0, _⟩ => show win2_0.index t (0 : Fin 2) * 400 + 1 * p.val = t.val * 400 + p.val; omega
  | ⟨1, _⟩ => show win2_0.index t (1 : Fin 2) * 10000 + 1 * j.val = j.val; omega

/-- Every point's block of the feature product is all of it. -/
theorem read1 (c : Dev nD) (t : Fin cfg2.N) :
    mat (m := 10000) (n := 64) (α := EReal) (iblk2 V c 1 t) = mat (feat V c) := by
  obtain ⟨-, -, e10, e11, -⟩ := idx_facts t
  funext p j
  show V c main_v1 (((cfg2.win 1).blk t).view.emb (ix2 p j)) = V c main_v1 (ix2 p j)
  refine congrArg _ (funext fun a => Fin.ext ?_)
  match a with
  | ⟨0, _⟩ => show win2_1.index t (0 : Fin 2) * 10000 + 1 * p.val = p.val; omega
  | ⟨1, _⟩ => show win2_1.index t (1 : Fin 2) * 64 + 1 * j.val = j.val; omega

/-- Every point's block of the weight matrix is all of it. -/
theorem read2 (c : Dev nD) (t : Fin cfg2.N) :
    mat (m := 64) (n := 64) (α := EReal) (iblk2 V c 2 t) = mat (wcat V c) := by
  obtain ⟨-, -, -, -, e20, e21, -⟩ := idx_facts t
  funext p j
  show V c main_v0 (((cfg2.win 2).blk t).view.emb (ix2 p j)) = V c main_v0 (ix2 p j)
  refine congrArg _ (funext fun a => Fin.ext ?_)
  match a with
  | ⟨0, _⟩ => show win2_2.index t (0 : Fin 2) * 64 + 1 * p.val = p.val; omega
  | ⟨1, _⟩ => show win2_2.index t (1 : Fin 2) * 64 + 1 * j.val = j.val; omega

/-- Point t's block of any output-shaped array is its rows 400t … 400t+399. -/
theorem read3 (g : S10000x64.Idx → EReal) (t : Fin cfg2.N) :
    mat (m := 400) (n := 64) (α := EReal) (((cfg2.win 3).blk t).view.read (Elt Ideal) g) = rowsAt t.val (lt25 t) (mat g) := by
  obtain ⟨-, -, -, -, -, -, e30, e31⟩ := idx_facts t
  funext p j
  show g (((cfg2.win 3).blk t).view.emb (ix2 p j)) = g (ix2 ⟨t.val * 400 + p.val, _⟩ j)
  refine congrArg _ (funext fun a => Fin.ext ?_)
  match a with
  | ⟨0, _⟩ => show win2_3.index t (0 : Fin 2) * 400 + 1 * p.val = t.val * 400 + p.val; omega
  | ⟨1, _⟩ => show win2_3.index t (1 : Fin 2) * 64 + 1 * j.val = j.val; omega

/-- What point t writes back is rows 400t … 400t+399 of G. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S400x10000) hz, View.ld_unit_zero (S := S10000x64) hz, View.ld_unit_zero (S := S64x64) hz]
  show k2_pay1 (iblk2 V c 0 t) (iblk2 V c 1 t) (iblk2 V c 2 t) = ((cfg2.win 3).blk t).view.read (Elt Ideal) (G V c)
  refine (eq_arr_of_entries (m := 400) (n := 64) _ _ fun p q => pass1_2_at _ _ _ p q).trans ?_
  refine ((eq_arr_of_entries (m := 400) (n := 64) _ _ fun p q => ?_).symm)
  show mat (m := 400) (n := 64) (α := EReal) (((cfg2.win 3).blk t).view.read (Elt Ideal) (G V c)) p q = _
  rw [read3, read0, read1, read2]
  rfl

/-- An index of the output is in point t's block iff each coordinate is in the block's range on its axis. -/
theorem mem_blk (t : Fin cfg2.N) (i : S10000x64.Idx) :
    i ∈ ((cfg2.win 3).blk t).view.set ↔ ∀ a : Fin 2, win2_3.index t a * S400x64.size a ≤ (i a).val ∧ (i a).val < win2_3.index t a * S400x64.size a + S400x64.size a := by
  show i ∈ ((View.whole main_v3).slice (win2_3.rect t)).set ↔ _
  rw [View.set_slice_whole, Rect.mem_set_unit]
  exact Iff.rfl

/-- The 25 blocks cover the output. -/
theorem cover (i : S10000x64.Idx) : ∃ t : Fin cfg2.N, (cfg2.win 3).flush t = true ∧ i ∈ ((cfg2.win 3).blk t).view.set := by
  obtain ⟨h25, hlo, hhi⟩ := row_in_stretch (i 0)
  have hi1 : (i 1).val < 64 := (i 1).isLt
  let t : Fin cfg2.N := ⟨(i 0).val / 400, lt_of_lt_of_eq h25 N_2.symm⟩
  obtain ⟨-, -, -, -, -, -, e30, e31⟩ := idx_facts t
  have e30' : win2_3.index t (0 : Fin 2) = (i 0).val / 400 := e30
  refine ⟨t, flush2_3 t, ?_⟩
  rw [mem_blk]
  intro a
  match a with
  | ⟨0, _⟩ => show win2_3.index t (0 : Fin 2) * 400 ≤ (i 0).val ∧ (i 0).val < win2_3.index t (0 : Fin 2) * 400 + 400; omega
  | ⟨1, _⟩ => show win2_3.index t (1 : Fin 2) * 64 ≤ (i 1).val ∧ (i 1).val < win2_3.index t (1 : Fin 2) * 64 + 64; omega

/-- After the pass the output array is max(A · S, 0) · Wc of the arrays found on entry. -/
theorem final (c : Dev nD) : (dat2 V c).arrAt 3 cfg2.N = G V c :=
  (dat2 V c).arrAt_eq_of_cover 3 (G V c) (fun t _ => flushed_eq V c t) cover

/-- The same with the arrays found on entry given by name. -/
theorem final_of (c : Dev nD) (x0 : S10000x10000.Idx → EReal) (x1 : S10000x64.Idx → EReal) (x2 : S64x64.Idx → EReal) (h0 : V c main_arg2 = x0) (h1 : V c main_v1 = x1) (h2 : V c main_v0 = x2) :
    (dat2 V c).arrAt 3 cfg2.N = arr (mm (floorAt zero32 (mm (mat x0) (mat x1))) (mat x2)) := by
  subst h0
  subst h1
  subst h2
  exact final V c

end Cert.KernelIdeal.Region2

end
-- ==== Proof.Region3.lean ====
/-
  The first propagation pass on the second side, as one array.

  The pass runs 25 grid points. Point t loads rows 400t … 400t+399 of the adjacency A, the whole feature product S and
  the whole side-by-side weight matrix Wc, and writes back rows 400t … 400t+399 of its output. Those rows are
  max(A_t · S, 0) · Wc, which are exactly rows 400t … 400t+399 of max(A · S, 0) · Wc: a row of a product reads only that
  row of the left factor. The 25 row stretches tile the 10000 rows, so after the last write-back the output array IS
  max(A · S, 0) · Wc of the arrays the region found on entry.
-/
import proofs.«161427_g53214644798189_cont_9to1_m_710_6_alg».proof.Proof.Gen.KernelIdeal.Frame
import proofs.«161427_g53214644798189_cont_9to1_m_710_6_alg».proof.Proof.Pay
import Idealize.ShloMosaic.Lib.Pipeline.Value

set_option maxRecDepth 16384

noncomputable section

namespace Cert.KernelIdeal.Region3

open Cert.KernelIdeal Cert.KernelIdeal.Gen Cert.Vgae
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the adjacency and the output move down one 400-row block per point, the two whole operands stay put. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem lt25 (t : Fin cfg3.N) : t.val < 25 := lt_of_lt_of_eq t.isLt N_3

/-- The arrays the region finds on entry. -/
abbrev adj (c : Dev nD) : S10000x10000.Idx → EReal := V c main_arg3
abbrev feat (c : Dev nD) : S10000x64.Idx → EReal := V c main_v2
abbrev wcat (c : Dev nD) : S64x64.Idx → EReal := V c main_v0

/-- What the output array holds after the region. -/
def G (c : Dev nD) : S10000x64.Idx → EReal :=
  arr (mm (floorAt zero32 (mm (mat (adj V c)) (mat (feat V c)))) (mat (wcat V c)))

/-- Point t's block of the adjacency is its rows 400t … 400t+399. -/
theorem read0 (c : Dev nD) (t : Fin cfg3.N) :
    mat (m := 400) (n := 10000) (α := EReal) (iblk3 V c 0 t) = rowsAt t.val (lt25 t) (mat (adj V c)) := by
  obtain ⟨e00, e01, -⟩ := idx_facts t
  funext p j
  show V c main_arg3 (((cfg3.win 0).blk t).view.emb (ix2 p j)) = V c main_arg3 (ix2 ⟨t.val * 400 + p.val, _⟩ j)
  refine congrArg _ (funext fun a => Fin.ext ?_)
  match a with
  | ⟨0, _⟩ => show win3_0.index t (0 : Fin 2) * 400 + 1 * p.val = t.val * 400 + p.val; omega
  | ⟨1, _⟩ => show win3_0.index t (1 : Fin 2) * 10000 + 1 * j.val = j.val; omega

/-- Every point's block of the feature product is all of it. -/
theorem read1 (c : Dev nD) (t : Fin cfg3.N) :
    mat (m := 10000) (n := 64) (α := EReal) (iblk3 V c 1 t) = mat (feat V c) := by
  obtain ⟨-, -, e10, e11, -⟩ := idx_facts t
  funext p j
  show V c main_v2 (((cfg3.win 1).blk t).view.emb (ix2 p j)) = V c main_v2 (ix2 p j)
  refine congrArg _ (funext fun a => Fin.ext ?_)
  match a with
  | ⟨0, _⟩ => show win3_1.index t (0 : Fin 2) * 10000 + 1 * p.val = p.val; omega
  | ⟨1, _⟩ => show win3_1.index t (1 : Fin 2) * 64 + 1 * j.val = j.val; omega

/-- Every point's block of the weight matrix is all of it. -/
theorem read2 (c : Dev nD) (t : Fin cfg3.N) :
    mat (m := 64) (n := 64) (α := EReal) (iblk3 V c 2 t) = mat (wcat V c) := by
  obtain ⟨-, -, -, -, e20, e21, -⟩ := idx_facts t
  funext p j
  show V c main_v0 (((cfg3.win 2).blk t).view.emb (ix2 p j)) = V c main_v0 (ix2 p j)
  refine congrArg _ (funext fun a => Fin.ext ?_)
  match a with
  | ⟨0, _⟩ => show win3_2.index t (0 : Fin 2) * 64 + 1 * p.val = p.val; omega
  | ⟨1, _⟩ => show win3_2.index t (1 : Fin 2) * 64 + 1 * j.val = j.val; omega

/-- Point t's block of any output-shaped array is its rows 400t … 400t+399. -/
theorem read3 (g : S10000x64.Idx → EReal) (t : Fin cfg3.N) :
    mat (m := 400) (n := 64) (α := EReal) (((cfg3.win 3).blk t).view.read (Elt Ideal) g) = rowsAt t.val (lt25 t) (mat g) := by
  obtain ⟨-, -, -, -, -, -, e30, e31⟩ := idx_facts t
  funext p j
  show g (((cfg3.win 3).blk t).view.emb (ix2 p j)) = g (ix2 ⟨t.val * 400 + p.val, _⟩ j)
  refine congrArg _ (funext fun a => Fin.ext ?_)
  match a with
  | ⟨0, _⟩ => show win3_3.index t (0 : Fin 2) * 400 + 1 * p.val = t.val * 400 + p.val; omega
  | ⟨1, _⟩ => show win3_3.index t (1 : Fin 2) * 64 + 1 * j.val = j.val; omega

/-- What point t writes back is rows 400t … 400t+399 of G. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S400x10000) hz, View.ld_unit_zero (S := S10000x64) hz, View.ld_unit_zero (S := S64x64) hz]
  show k3_pay1 (iblk3 V c 0 t) (iblk3 V c 1 t) (iblk3 V c 2 t) = ((cfg3.win 3).blk t).view.read (Elt Ideal) (G V c)
  refine (eq_arr_of_entries (m := 400) (n := 64) _ _ fun p q => pass1_3_at _ _ _ p q).trans ?_
  refine ((eq_arr_of_entries (m := 400) (n := 64) _ _ fun p q => ?_).symm)
  show mat (m := 400) (n := 64) (α := EReal) (((cfg3.win 3).blk t).view.read (Elt Ideal) (G V c)) p q = _
  rw [read3, read0, read1, read2]
  rfl

/-- An index of the output is in point t's block iff each coordinate is in the block's range on its axis. -/
theorem mem_blk (t : Fin cfg3.N) (i : S10000x64.Idx) :
    i ∈ ((cfg3.win 3).blk t).view.set ↔ ∀ a : Fin 2, win3_3.index t a * S400x64.size a ≤ (i a).val ∧ (i a).val < win3_3.index t a * S400x64.size a + S400x64.size a := by
  show i ∈ ((View.whole main_v4).slice (win3_3.rect t)).set ↔ _
  rw [View.set_slice_whole, Rect.mem_set_unit]
  exact Iff.rfl

/-- The 25 blocks cover the output. -/
theorem cover (i : S10000x64.Idx) : ∃ t : Fin cfg3.N, (cfg3.win 3).flush t = true ∧ i ∈ ((cfg3.win 3).blk t).view.set := by
  obtain ⟨h25, hlo, hhi⟩ := row_in_stretch (i 0)
  have hi1 : (i 1).val < 64 := (i 1).isLt
  let t : Fin cfg3.N := ⟨(i 0).val / 400, lt_of_lt_of_eq h25 N_3.symm⟩
  obtain ⟨-, -, -, -, -, -, e30, e31⟩ := idx_facts t
  have e30' : win3_3.index t (0 : Fin 2) = (i 0).val / 400 := e30
  refine ⟨t, flush3_3 t, ?_⟩
  rw [mem_blk]
  intro a
  match a with
  | ⟨0, _⟩ => show win3_3.index t (0 : Fin 2) * 400 ≤ (i 0).val ∧ (i 0).val < win3_3.index t (0 : Fin 2) * 400 + 400; omega
  | ⟨1, _⟩ => show win3_3.index t (1 : Fin 2) * 64 ≤ (i 1).val ∧ (i 1).val < win3_3.index t (1 : Fin 2) * 64 + 64; omega

/-- After the pass the output array is max(A · S, 0) · Wc of the arrays found on entry. -/
theorem final (c : Dev nD) : (dat3 V c).arrAt 3 cfg3.N = G V c :=
  (dat3 V c).arrAt_eq_of_cover 3 (G V c) (fun t _ => flushed_eq V c t) cover

/-- The same with the arrays found on entry given by name. -/
theorem final_of (c : Dev nD) (x0 : S10000x10000.Idx → EReal) (x1 : S10000x64.Idx → EReal) (x2 : S64x64.Idx → EReal) (h0 : V c main_arg3 = x0) (h1 : V c main_v2 = x1) (h2 : V c main_v0 = x2) :
    (dat3 V c).arrAt 3 cfg3.N = arr (mm (floorAt zero32 (mm (mat x0) (mat x1))) (mat x2)) := by
  subst h0
  subst h1
  subst h2
  exact final V c

end Cert.KernelIdeal.Region3

end
-- ==== Proof.Region4.lean ====
/-
  The second propagation pass on the first side, as one array.

  The pass runs 25 grid points. Point t loads rows 400t … 400t+399 of the adjacency A and the whole first-pass output
  G, and writes back rows 400t … 400t+399 of its output: A_t · G, which are rows 400t … 400t+399 of A · G. The 25 row
  stretches tile the 10000 rows, so after the last write-back the output array IS A · G of the arrays the region found
  on entry.
-/
import proofs.«161427_g53214644798189_cont_9to1_m_710_6_alg».proof.Proof.Gen.KernelIdeal.Frame
import proofs.«161427_g53214644798189_cont_9to1_m_710_6_alg».proof.Proof.Pay
import Idealize.ShloMosaic.Lib.Pipeline.Value

set_option maxRecDepth 16384

noncomputable section

namespace Cert.KernelIdeal.Region4

open Cert.KernelIdeal Cert.KernelIdeal.Gen Cert.Vgae
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the adjacency and the output move down one 400-row block per point, the whole operand stays put. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem lt25 (t : Fin cfg4.N) : t.val < 25 := lt_of_lt_of_eq t.isLt N_4

/-- The arrays the region finds on entry. -/
abbrev adj (c : Dev nD) : S10000x10000.Idx → EReal := V c main_arg2
abbrev hid (c : Dev nD) : S10000x64.Idx → EReal := V c main_v3

/-- What the output array holds after the region. -/
def G (c : Dev nD) : S10000x64.Idx → EReal :=
  arr (mm (mat (adj V c)) (mat (hid V c)))

/-- Point t's block of the adjacency is its rows 400t … 400t+399. -/
theorem read0 (c : Dev nD) (t : Fin cfg4.N) :
    mat (m := 400) (n := 10000) (α := EReal) (iblk4 V c 0 t) = rowsAt t.val (lt25 t) (mat (adj V c)) := by
  obtain ⟨e00, e01, -⟩ := idx_facts t
  funext p j
  show V c main_arg2 (((cfg4.win 0).blk t).view.emb (ix2 p j)) = V c main_arg2 (ix2 ⟨t.val * 400 + p.val, _⟩ j)
  refine congrArg _ (funext fun a => Fin.ext ?_)
  match a with
  | ⟨0, _⟩ => show win4_0.index t (0 : Fin 2) * 400 + 1 * p.val = t.val * 400 + p.val; omega
  | ⟨1, _⟩ => show win4_0.index t (1 : Fin 2) * 10000 + 1 * j.val = j.val; omega

/-- Every point's block of the first-pass output is all of it. -/
theorem read1 (c : Dev nD) (t : Fin cfg4.N) :
    mat (m := 10000) (n := 64) (α := EReal) (iblk4 V c 1 t) = mat (hid V c) := by
  obtain ⟨-, -, e10, e11, -⟩ := idx_facts t
  funext p j
  show V c main_v3 (((cfg4.win 1).blk t).view.emb (ix2 p j)) = V c main_v3 (ix2 p j)
  refine congrArg _ (funext fun a => Fin.ext ?_)
  match a with
  | ⟨0, _⟩ => show win4_1.index t (0 : Fin 2) * 10000 + 1 * p.val = p.val; omega
  | ⟨1, _⟩ => show win4_1.index t (1 : Fin 2) * 64 + 1 * j.val = j.val; omega

/-- Point t's block of any output-shaped array is its rows 400t … 400t+399. -/
theorem read2 (g : S10000x64.Idx → EReal) (t : Fin cfg4.N) :
    mat (m := 400) (n := 64) (α := EReal) (((cfg4.win 2).blk t).view.read (Elt Ideal) g) = rowsAt t.val (lt25 t) (mat g) := by
  obtain ⟨-, -, -, -, e20, e21⟩ := idx_facts t
  funext p j
  show g (((cfg4.win 2).blk t).view.emb (ix2 p j)) = g (ix2 ⟨t.val * 400 + p.val, _⟩ j)
  refine congrArg _ (funext fun a => Fin.ext ?_)
  match a with
  | ⟨0, _⟩ => show win4_2.index t (0 : Fin 2) * 400 + 1 * p.val = t.val * 400 + p.val; omega
  | ⟨1, _⟩ => show win4_2.index t (1 : Fin 2) * 64 + 1 * j.val = j.val; omega

/-- What point t writes back is rows 400t … 400t+399 of G. -/
theorem flushed_eq (c : Dev nD) (t : Fin cfg4.N) :
    (dat4 V c).flushed 2 t = ((cfg4.win 2).blk t).view.read (Elt Ideal) (G V c) := by
  show (cfg4.win 2).cut (grid4.coords t) ((dat4 V c).after 2 t) = _
  rw [after4_2]
  unfold out4_2
  rw [View.canon_unit_zero hz]
  simp only [View.ld_unit_zero (S := S400x10000) hz, View.ld_unit_zero (S := S10000x64) hz]
  show k4_pay1 (iblk4 V c 0 t) (iblk4 V c 1 t) = ((cfg4.win 2).blk t).view.read (Elt Ideal) (G V c)
  refine (eq_arr_of_entries (m := 400) (n := 64) _ _ fun p q => pass2_4_at _ _ p q).trans ?_
  refine ((eq_arr_of_entries (m := 400) (n := 64) _ _ fun p q => ?_).symm)
  show mat (m := 400) (n := 64) (α := EReal) (((cfg4.win 2).blk t).view.read (Elt Ideal) (G V c)) p q = _
  rw [read2, read0, read1]
  rfl

/-- An index of the output is in point t's block iff each coordinate is in the block's range on its axis. -/
theorem mem_blk (t : Fin cfg4.N) (i : S10000x64.Idx) :
    i ∈ ((cfg4.win 2).blk t).view.set ↔ ∀ a : Fin 2, win4_2.index t a * S400x64.size a ≤ (i a).val ∧ (i a).val < win4_2.index t a * S400x64.size a + S400x64.size a := by
  show i ∈ ((View.whole main_v5).slice (win4_2.rect t)).set ↔ _
  rw [View.set_slice_whole, Rect.mem_set_unit]
  exact Iff.rfl

/-- The 25 blocks cover the output. -/
theorem cover (i : S10000x64.Idx) : ∃ t : Fin cfg4.N, (cfg4.win 2).flush t = true ∧ i ∈ ((cfg4.win 2).blk t).view.set := by
  obtain ⟨h25, hlo, hhi⟩ := row_in_stretch (i 0)
  have hi1 : (i 1).val < 64 := (i 1).isLt
  let t : Fin cfg4.N := ⟨(i 0).val / 400, lt_of_lt_of_eq h25 N_4.symm⟩
  obtain ⟨-, -, -, -, e20, e21⟩ := idx_facts t
  have e20' : win4_2.index t (0 : Fin 2) = (i 0).val / 400 := e20
  refine ⟨t, flush4_2 t, ?_⟩
  rw [mem_blk]
  intro a
  match a with
  | ⟨0, _⟩ => show win4_2.index t (0 : Fin 2) * 400 ≤ (i 0).val ∧ (i 0).val < win4_2.index t (0 : Fin 2) * 400 + 400; omega
  | ⟨1, _⟩ => show win4_2.index t (1 : Fin 2) * 64 ≤ (i 1).val ∧ (i 1).val < win4_2.index t (1 : Fin 2) * 64 + 64; omega

/-- After the pass the output array is A · G of the arrays found on entry. -/
theorem final (c : Dev nD) : (dat4 V c).arrAt 2 cfg4.N = G V c :=
  (dat4 V c).arrAt_eq_of_cover 2 (G V c) (fun t _ => flushed_eq V c t) cover

/-- The same with the arrays found on entry given by name. -/
theorem final_of (c : Dev nD) (x0 : S10000x10000.Idx → EReal) (x1 : S10000x64.Idx → EReal) (h0 : V c main_arg2 = x0) (h1 : V c main_v3 = x1) :
    (dat4 V c).arrAt 2 cfg4.N = arr (mm (mat x0) (mat x1)) := by
  subst h0
  subst h1
  exact final V c

end Cert.KernelIdeal.Region4

end
-- ==== Proof.Region5.lean ====
/-
  The second propagation pass on the second side, as one array.

  The pass runs 25 grid points. Point t loads rows 400t … 400t+399 of the adjacency A and the whole first-pass output
  G, and writes back rows 400t … 400t+399 of its output: A_t · G, which are rows 400t … 400t+399 of A · G. The 25 row
  stretches tile the 10000 rows, so after the last write-back the output array IS A · G of the arrays the region found
  on entry.
-/
import proofs.«161427_g53214644798189_cont_9to1_m_710_6_alg».proof.Proof.Gen.KernelIdeal.Frame
import proofs.«161427_g53214644798189_cont_9to1_m_710_6_alg».proof.Proof.Pay
import Idealize.ShloMosaic.Lib.Pipeline.Value

set_option maxRecDepth 16384

noncomputable section

namespace Cert.KernelIdeal.Region5

open Cert.KernelIdeal Cert.KernelIdeal.Gen Cert.Vgae
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the adjacency and the output move down one 400-row block per point, the whole operand stays put. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem lt25 (t : Fin cfg5.N) : t.val < 25 := lt_of_lt_of_eq t.isLt N_5

/-- The arrays the region finds on entry. -/
abbrev adj (c : Dev nD) : S10000x10000.Idx → EReal := V c main_arg3
abbrev hid (c : Dev nD) : S10000x64.Idx → EReal := V c main_v4

/-- What the output array holds after the region. -/
def G (c : Dev nD) : S10000x64.Idx → EReal :=
  arr (mm (mat (adj V c)) (mat (hid V c)))

/-- Point t's block of the adjacency is its rows 400t … 400t+399. -/
theorem read0 (c : Dev nD) (t : Fin cfg5.N) :
    mat (m := 400) (n := 10000) (α := EReal) (iblk5 V c 0 t) = rowsAt t.val (lt25 t) (mat (adj V c)) := by
  obtain ⟨e00, e01, -⟩ := idx_facts t
  funext p j
  show V c main_arg3 (((cfg5.win 0).blk t).view.emb (ix2 p j)) = V c main_arg3 (ix2 ⟨t.val * 400 + p.val, _⟩ j)
  refine congrArg _ (funext fun a => Fin.ext ?_)
  match a with
  | ⟨0, _⟩ => show win5_0.index t (0 : Fin 2) * 400 + 1 * p.val = t.val * 400 + p.val; omega
  | ⟨1, _⟩ => show win5_0.index t (1 : Fin 2) * 10000 + 1 * j.val = j.val; omega

/-- Every point's block of the first-pass output is all of it. -/
theorem read1 (c : Dev nD) (t : Fin cfg5.N) :
    mat (m := 10000) (n := 64) (α := EReal) (iblk5 V c 1 t) = mat (hid V c) := by
  obtain ⟨-, -, e10, e11, -⟩ := idx_facts t
  funext p j
  show V c main_v4 (((cfg5.win 1).blk t).view.emb (ix2 p j)) = V c main_v4 (ix2 p j)
  refine congrArg _ (funext fun a => Fin.ext ?_)
  match a with
  | ⟨0, _⟩ => show win5_1.index t (0 : Fin 2) * 10000 + 1 * p.val = p.val; omega
  | ⟨1, _⟩ => show win5_1.index t (1 : Fin 2) * 64 + 1 * j.val = j.val; omega

/-- Point t's block of any output-shaped array is its rows 400t … 400t+399. -/
theorem read2 (g : S10000x64.Idx → EReal) (t : Fin cfg5.N) :
    mat (m := 400) (n := 64) (α := EReal) (((cfg5.win 2).blk t).view.read (Elt Ideal) g) = rowsAt t.val (lt25 t) (mat g) := by
  obtain ⟨-, -, -, -, e20, e21⟩ := idx_facts t
  funext p j
  show g (((cfg5.win 2).blk t).view.emb (ix2 p j)) = g (ix2 ⟨t.val * 400 + p.val, _⟩ j)
  refine congrArg _ (funext fun a => Fin.ext ?_)
  match a with
  | ⟨0, _⟩ => show win5_2.index t (0 : Fin 2) * 400 + 1 * p.val = t.val * 400 + p.val; omega
  | ⟨1, _⟩ => show win5_2.index t (1 : Fin 2) * 64 + 1 * j.val = j.val; omega

/-- What point t writes back is rows 400t … 400t+399 of G. -/
theorem flushed_eq (c : Dev nD) (t : Fin cfg5.N) :
    (dat5 V c).flushed 2 t = ((cfg5.win 2).blk t).view.read (Elt Ideal) (G V c) := by
  show (cfg5.win 2).cut (grid5.coords t) ((dat5 V c).after 2 t) = _
  rw [after5_2]
  unfold out5_2
  rw [View.canon_unit_zero hz]
  simp only [View.ld_unit_zero (S := S400x10000) hz, View.ld_unit_zero (S := S10000x64) hz]
  show k5_pay1 (iblk5 V c 0 t) (iblk5 V c 1 t) = ((cfg5.win 2).blk t).view.read (Elt Ideal) (G V c)
  refine (eq_arr_of_entries (m := 400) (n := 64) _ _ fun p q => pass2_5_at _ _ p q).trans ?_
  refine ((eq_arr_of_entries (m := 400) (n := 64) _ _ fun p q => ?_).symm)
  show mat (m := 400) (n := 64) (α := EReal) (((cfg5.win 2).blk t).view.read (Elt Ideal) (G V c)) p q = _
  rw [read2, read0, read1]
  rfl

/-- An index of the output is in point t's block iff each coordinate is in the block's range on its axis. -/
theorem mem_blk (t : Fin cfg5.N) (i : S10000x64.Idx) :
    i ∈ ((cfg5.win 2).blk t).view.set ↔ ∀ a : Fin 2, win5_2.index t a * S400x64.size a ≤ (i a).val ∧ (i a).val < win5_2.index t a * S400x64.size a + S400x64.size a := by
  show i ∈ ((View.whole main_v6).slice (win5_2.rect t)).set ↔ _
  rw [View.set_slice_whole, Rect.mem_set_unit]
  exact Iff.rfl

/-- The 25 blocks cover the output. -/
theorem cover (i : S10000x64.Idx) : ∃ t : Fin cfg5.N, (cfg5.win 2).flush t = true ∧ i ∈ ((cfg5.win 2).blk t).view.set := by
  obtain ⟨h25, hlo, hhi⟩ := row_in_stretch (i 0)
  have hi1 : (i 1).val < 64 := (i 1).isLt
  let t : Fin cfg5.N := ⟨(i 0).val / 400, lt_of_lt_of_eq h25 N_5.symm⟩
  obtain ⟨-, -, -, -, e20, e21⟩ := idx_facts t
  have e20' : win5_2.index t (0 : Fin 2) = (i 0).val / 400 := e20
  refine ⟨t, flush5_2 t, ?_⟩
  rw [mem_blk]
  intro a
  match a with
  | ⟨0, _⟩ => show win5_2.index t (0 : Fin 2) * 400 ≤ (i 0).val ∧ (i 0).val < win5_2.index t (0 : Fin 2) * 400 + 400; omega
  | ⟨1, _⟩ => show win5_2.index t (1 : Fin 2) * 64 ≤ (i 1).val ∧ (i 1).val < win5_2.index t (1 : Fin 2) * 64 + 64; omega

/-- After the pass the output array is A · G of the arrays found on entry. -/
theorem final (c : Dev nD) : (dat5 V c).arrAt 2 cfg5.N = G V c :=
  (dat5 V c).arrAt_eq_of_cover 2 (G V c) (fun t _ => flushed_eq V c t) cover

/-- The same with the arrays found on entry given by name. -/
theorem final_of (c : Dev nD) (x0 : S10000x10000.Idx → EReal) (x1 : S10000x64.Idx → EReal) (h0 : V c main_arg3 = x0) (h1 : V c main_v4 = x1) :
    (dat5 V c).arrAt 2 cfg5.N = arr (mm (mat x0) (mat x1)) := by
  subst h0
  subst h1
  exact final V c

end Cert.KernelIdeal.Region5

end
-- ==== Proof.Region6.lean ====
/-
  The decoder's product, as one array.

  The region runs 25 grid points. Point t loads rows 400t … 400t+399 of the left factor Z (10000 × 32) and the whole
  right factor Zt (32 × 10000), and writes back rows 400t … 400t+399 of its 10000 × 10000 output: Z_t · Zt, which are
  rows 400t … 400t+399 of Z · Zt. The factors arrive in a narrower float format; on the extended reals a format is no
  restriction. The 25 row stretches tile the 10000 rows, so after the last write-back the output array IS Z · Zt of
  the arrays the region found on entry.
-/
import proofs.«161427_g53214644798189_cont_9to1_m_710_6_alg».proof.Proof.Gen.KernelIdeal.Frame
import proofs.«161427_g53214644798189_cont_9to1_m_710_6_alg».proof.Proof.Pay
import Idealize.ShloMosaic.Lib.Pipeline.Value

set_option maxRecDepth 16384

noncomputable section

namespace Cert.KernelIdeal.Region6

open Cert.KernelIdeal Cert.KernelIdeal.Gen Cert.Vgae
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left factor and the output move down one 400-row block per point, the right factor stays put. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

theorem lt25 (t : Fin cfg6.N) : t.val < 25 := lt_of_lt_of_eq t.isLt N_6

/-- The arrays the region finds on entry. -/
abbrev zl (c : Dev nD) : S10000x32.Idx → EReal := V c main_v11
abbrev zr (c : Dev nD) : S32x10000.Idx → EReal := V c main_v13

/-- What the output array holds after the region. -/
def G (c : Dev nD) : S10000x10000.Idx → EReal :=
  arr (mm (mat (zl V c)) (mat (zr V c)))

/-- Point t's block of the left factor is its rows 400t … 400t+399. -/
theorem read0 (c : Dev nD) (t : Fin cfg6.N) :
    mat (m := 400) (n := 32) (α := EReal) (iblk6 V c 0 t) = rowsAt t.val (lt25 t) (mat (zl V c)) := by
  obtain ⟨e00, e01, -⟩ := idx_facts t
  funext p j
  show V c main_v11 (((cfg6.win 0).blk t).view.emb (ix2 p j)) = V c main_v11 (ix2 ⟨t.val * 400 + p.val, _⟩ j)
  refine congrArg _ (funext fun a => Fin.ext ?_)
  match a with
  | ⟨0, _⟩ => show win6_0.index t (0 : Fin 2) * 400 + 1 * p.val = t.val * 400 + p.val; omega
  | ⟨1, _⟩ => show win6_0.index t (1 : Fin 2) * 32 + 1 * j.val = j.val; omega

/-- Every point's block of the right factor is all of it. -/
theorem read1 (c : Dev nD) (t : Fin cfg6.N) :
    mat (m := 32) (n := 10000) (α := EReal) (iblk6 V c 1 t) = mat (zr V c) := by
  obtain ⟨-, -, e10, e11, -⟩ := idx_facts t
  funext p j
  show V c main_v13 (((cfg6.win 1).blk t).view.emb (ix2 p j)) = V c main_v13 (ix2 p j)
  refine congrArg _ (funext fun a => Fin.ext ?_)
  match a with
  | ⟨0, _⟩ => show win6_1.index t (0 : Fin 2) * 32 + 1 * p.val = p.val; omega
  | ⟨1, _⟩ => show win6_1.index t (1 : Fin 2) * 10000 + 1 * j.val = j.val; omega

/-- Point t's block of any output-shaped array is its rows 400t … 400t+399. -/
theorem read2 (g : S10000x10000.Idx → EReal) (t : Fin cfg6.N) :
    mat (m := 400) (n := 10000) (α := EReal) (((cfg6.win 2).blk t).view.read (Elt Ideal) g) = rowsAt t.val (lt25 t) (mat g) := by
  obtain ⟨-, -, -, -, e20, e21⟩ := idx_facts t
  funext p j
  show g (((cfg6.win 2).blk t).view.emb (ix2 p j)) = g (ix2 ⟨t.val * 400 + p.val, _⟩ j)
  refine congrArg _ (funext fun a => Fin.ext ?_)
  match a with
  | ⟨0, _⟩ => show win6_2.index t (0 : Fin 2) * 400 + 1 * p.val = t.val * 400 + p.val; omega
  | ⟨1, _⟩ => show win6_2.index t (1 : Fin 2) * 10000 + 1 * j.val = j.val; omega

/-- What point t writes back is rows 400t … 400t+399 of G. -/
theorem flushed_eq (c : Dev nD) (t : Fin cfg6.N) :
    (dat6 V c).flushed 2 t = ((cfg6.win 2).blk t).view.read (Elt Ideal) (G V c) := by
  show (cfg6.win 2).cut (grid6.coords t) ((dat6 V c).after 2 t) = _
  rw [after6_2]
  unfold out6_2
  rw [View.canon_unit_zero hz]
  simp only [View.ld_unit_zero (S := S400x32) hz, View.ld_unit_zero (S := S32x10000) hz]
  show k6_pay1 (iblk6 V c 0 t) (iblk6 V c 1 t) = ((cfg6.win 2).blk t).view.read (Elt Ideal) (G V c)
  refine (eq_arr_of_entries (m := 400) (n := 10000) _ _ fun p q => recon_at _ _ p q).trans ?_
  refine ((eq_arr_of_entries (m := 400) (n := 10000) _ _ fun p q => ?_).symm)
  show mat (m := 400) (n := 10000) (α := EReal) (((cfg6.win 2).blk t).view.read (Elt Ideal) (G V c)) p q = _
  rw [read2, read0, read1]
  rfl

/-- An index of the output is in point t's block iff each coordinate is in the block's range on its axis. -/
theorem mem_blk (t : Fin cfg6.N) (i : S10000x10000.Idx) :
    i ∈ ((cfg6.win 2).blk t).view.set ↔ ∀ a : Fin 2, win6_2.index t a * S400x10000.size a ≤ (i a).val ∧ (i a).val < win6_2.index t a * S400x10000.size a + S400x10000.size a := by
  show i ∈ ((View.whole main_v14).slice (win6_2.rect t)).set ↔ _
  rw [View.set_slice_whole, Rect.mem_set_unit]
  exact Iff.rfl

/-- The 25 blocks cover the output. -/
theorem cover (i : S10000x10000.Idx) : ∃ t : Fin cfg6.N, (cfg6.win 2).flush t = true ∧ i ∈ ((cfg6.win 2).blk t).view.set := by
  obtain ⟨h25, hlo, hhi⟩ := row_in_stretch (i 0)
  have hi1 : (i 1).val < 10000 := (i 1).isLt
  let t : Fin cfg6.N := ⟨(i 0).val / 400, lt_of_lt_of_eq h25 N_6.symm⟩
  obtain ⟨-, -, -, -, e20, e21⟩ := idx_facts t
  have e20' : win6_2.index t (0 : Fin 2) = (i 0).val / 400 := e20
  refine ⟨t, flush6_2 t, ?_⟩
  rw [mem_blk]
  intro a
  match a with
  | ⟨0, _⟩ => show win6_2.index t (0 : Fin 2) * 400 ≤ (i 0).val ∧ (i 0).val < win6_2.index t (0 : Fin 2) * 400 + 400; omega
  | ⟨1, _⟩ => show win6_2.index t (1 : Fin 2) * 10000 ≤ (i 1).val ∧ (i 1).val < win6_2.index t (1 : Fin 2) * 10000 + 10000; omega

/-- After the region the output array is Z · Zt of the arrays found on entry. -/
theorem final (c : Dev nD) : (dat6 V c).arrAt 2 cfg6.N = G V c :=
  (dat6 V c).arrAt_eq_of_cover 2 (G V c) (fun t _ => flushed_eq V c t) cover

/-- The same with the arrays found on entry given by name. -/
theorem final_of (c : Dev nD) (x0 : S10000x32.Idx → EReal) (x1 : S32x10000.Idx → EReal) (h0 : V c main_v11 = x0) (h1 : V c main_v13 = x1) :
    (dat6 V c).arrAt 2 cfg6.N = arr (mm (mat x0) (mat x1)) := by
  subst h0
  subst h1
  exact final V c

end Cert.KernelIdeal.Region6

end
-- ==== Proof.HostOps.lean ====
/-
  The kernel program's host operations, as operations on functions of two coordinates.

  Before its regions the program lays the two 64 × 32 weight matrices side by side; after them it takes the left and
  right 32 columns of each fused 64-column result, transposes one of them, and changes two arrays' float format. Entry
  by entry: the side-by-side matrix reads the first matrix left of column 32 and the second from column 32 on; a
  column half reads the same row at the same column or 32 further; the transpose swaps the coordinates; and on the
  extended reals a change of float format changes nothing.
-/
import proofs.«161427_g53214644798189_cont_9to1_m_710_6_alg».proof.Proof.Gen.KernelIdeal
import proofs.«161427_g53214644798189_cont_9to1_m_710_6_alg».proof.Proof.Spec
import Idealize.ShloMosaic.Lib.Pipeline.Value

noncomputable section

namespace Cert.Vgae.Host

open Cert.KernelIdeal Cert.KernelIdeal.Gen Cert.Vgae
open Idealize.ShloMosaic Idealize.ShloMosaic.ValueIdx

/-- Two 64 × 32 matrices concatenated along the columns. -/
theorem concat_eq (a b : FVec Ideal S64x32 .f32) :
    concatenate S64x64 1 [⟨S64x32, a⟩, ⟨S64x32, b⟩] concatenates_S64x32_S64x32_S64x64_d1 = arr (sideBySide (mat a) (mat b)) :=
  eq_arr_of_entries _ _ fun k q => by
    show _ = (if h : q.val < 32 then mat a k ⟨q.val, h⟩ else mat b k ⟨q.val - 32, _⟩)
    by_cases h : q.val < 32
    · rw [dif_pos h]
      exact concatenate_pair_apply_left (1 : Fin 2) a b _ (ix2 k q) rfl (ix2 k ⟨q.val, h⟩)
        (fun d => by match d with | ⟨0, _⟩ => rfl | ⟨1, _⟩ => rfl)
    · rw [dif_neg h]
      have hq : q.val < 64 := q.isLt
      exact concatenate_pair_apply_right (1 : Fin 2) a b _ (ix2 k q) rfl rfl (ix2 k ⟨q.val - 32, by omega⟩)
        (fun d hd => by match d with | ⟨0, _⟩ => rfl | ⟨1, _⟩ => exact absurd rfl hd)
        (by show q.val - 32 + 32 = q.val; omega)

/-- Columns 0 … 31 of a 64-column array. -/
theorem sliceLo_eq (x : FVec Ideal S10000x64 .f32) :
    extractStridedSlice S10000x32 ![0, 0] x slices_S10000x64_S10000x32_0_0 = arr (colsLo (mat x)) :=
  eq_arr_of_entries _ _ fun p q =>
    extractStridedSlice_apply ![0, 0] x _ (ix2 p q) (ix2 p ⟨q.val, by have := q.isLt; omega⟩)
      (fun d => by match d with
        | ⟨0, _⟩ => show p.val = 0 + p.val; omega
        | ⟨1, _⟩ => show q.val = 0 + q.val; omega)

/-- Columns 32 … 63 of a 64-column array. -/
theorem sliceHi_eq (x : FVec Ideal S10000x64 .f32) :
    extractStridedSlice S10000x32 ![0, 32] x slices_S10000x64_S10000x32_0_32 = arr (colsHi (mat x)) :=
  eq_arr_of_entries _ _ fun p q =>
    extractStridedSlice_apply ![0, 32] x _ (ix2 p q) (ix2 p ⟨32 + q.val, by have := q.isLt; omega⟩)
      (fun d => by match d with
        | ⟨0, _⟩ => show p.val = 0 + p.val; omega
        | ⟨1, _⟩ => show 32 + q.val = 32 + q.val; rfl)

/-- The transpose swaps the coordinates. -/
theorem transpose_eq (z : FVec Ideal S10000x32 .f32) :
    transpose S32x10000 [1, 0] z transposes_S10000x32_S32x10000_1_0 = arr (tr (mat z)) :=
  eq_arr_of_entries _ _ fun k r =>
    transpose_apply _ z _ (ix2 k r) (ix2 r k) (fun d => by match d with | ⟨0, _⟩ => rfl | ⟨1, _⟩ => rfl)

/-- A change to the narrower float format changes no entry. -/
theorem narrow_eq {s : Shape} (x : FVec Ideal s .f32) (h : (FTy.bf16).bits < (FTy.f32).bits) :
    ((truncf .bf16 x h : FVec Ideal s .bf16) : s.Idx → EReal) = x := rfl

end Cert.Vgae.Host

end
-- ==== Proof.Fold.lean ====
/-
  The kernel program's results, read back from the last boundary to the arguments.

  At each boundary between segments every live buffer holds a known function of the argument arrays: the weight
  matrices side by side after the first host stretch; the feature products X · W1 after the first two regions; the
  first-pass outputs max(A · S, 0) · [W2 | W3] after the next two; the fused heads A · (H · [W2 | W3]) after the two
  second passes; their column halves, a transpose and two format changes after the second host stretch; and the
  decoder's product after the last region. A region replaces its output array by the whole-array formula of the
  arrays it found on entry and leaves every other buffer as it was, so the formulas compose. At the end the left
  column half of a fused head is the first head A · (H · W2) and the right half the second, A · (H · W3): a column
  of a product reads only that column of its right factor.
-/
import proofs.«161427_g53214644798189_cont_9to1_m_710_6_alg».proof.Proof.Gen.KernelIdeal.Frame
import proofs.«161427_g53214644798189_cont_9to1_m_710_6_alg».proof.Proof.Region0
import proofs.«161427_g53214644798189_cont_9to1_m_710_6_alg».proof.Proof.Region1
import proofs.«161427_g53214644798189_cont_9to1_m_710_6_alg».proof.Proof.Region2
import proofs.«161427_g53214644798189_cont_9to1_m_710_6_alg».proof.Proof.Region3
import proofs.«161427_g53214644798189_cont_9to1_m_710_6_alg».proof.Proof.Region4
import proofs.«161427_g53214644798189_cont_9to1_m_710_6_alg».proof.Proof.Region5
import proofs.«161427_g53214644798189_cont_9to1_m_710_6_alg».proof.Proof.Region6
import proofs.«161427_g53214644798189_cont_9to1_m_710_6_alg».proof.Proof.HostOps
import Idealize.ShloMosaic.Lib.StableHlo.Run

set_option maxRecDepth 16384

noncomputable section

namespace Cert.KernelIdeal.Fold

open Cert.KernelIdeal Cert.KernelIdeal.Gen Cert.Vgae
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The argument arrays on core c, and the formulas over them -/

abbrev aX0 (c : Dev nD) : S10000x128.Idx → EReal := m ((c : Thread nD τ).loc main_arg0)
abbrev aX1 (c : Dev nD) : S10000x128.Idx → EReal := m ((c : Thread nD τ).loc main_arg1)
abbrev aA2 (c : Dev nD) : S10000x10000.Idx → EReal := m ((c : Thread nD τ).loc main_arg2)
abbrev aA3 (c : Dev nD) : S10000x10000.Idx → EReal := m ((c : Thread nD τ).loc main_arg3)
abbrev aW1 (c : Dev nD) : S128x64.Idx → EReal := m ((c : Thread nD τ).loc main_arg4)
abbrev aW2 (c : Dev nD) : S64x32.Idx → EReal := m ((c : Thread nD τ).loc main_arg5)
abbrev aW3 (c : Dev nD) : S64x32.Idx → EReal := m ((c : Thread nD τ).loc main_arg6)

/-- X · W1 on each side. -/
def featOut (c : Dev nD) : Fin 10000 → Fin 64 → EReal := mm (mat (aX0 m c)) (mat (aW1 m c))
def featIn (c : Dev nD) : Fin 10000 → Fin 64 → EReal := mm (mat (aX1 m c)) (mat (aW1 m c))
/-- [W2 | W3]. -/
def wBoth (c : Dev nD) : Fin 64 → Fin 64 → EReal := sideBySide (mat (aW2 m c)) (mat (aW3 m c))
/-- max(A · (X · W1), 0) · [W2 | W3] on each side. -/
def passOut (c : Dev nD) : Fin 10000 → Fin 64 → EReal :=
  mm (hidden zero32 (mat (aA2 m c)) (mat (aX0 m c)) (mat (aW1 m c))) (wBoth m c)
def passIn (c : Dev nD) : Fin 10000 → Fin 64 → EReal :=
  mm (hidden zero32 (mat (aA3 m c)) (mat (aX1 m c)) (mat (aW1 m c))) (wBoth m c)
/-- The fused heads on each side. -/
def headsOut (c : Dev nD) : Fin 10000 → Fin 64 → EReal :=
  heads zero32 (mat (aA2 m c)) (mat (aX0 m c)) (mat (aW1 m c)) (mat (aW2 m c)) (mat (aW3 m c))
def headsIn (c : Dev nD) : Fin 10000 → Fin 64 → EReal :=
  heads zero32 (mat (aA3 m c)) (mat (aX1 m c)) (mat (aW1 m c)) (mat (aW2 m c)) (mat (aW3 m c))

/-! ## What each live buffer holds at each boundary

### After the first host stretch -/

theorem at1_arg0 (c : Dev nD) : W1 m ρ c (Proc.devRef .tc main_arg0) = aX0 m c := by
  show StableHlo.after hostOps0 (W0 m ρ c) (Proc.devRef .tc main_arg0) = _
  after_results <;> rfl
theorem at1_arg1 (c : Dev nD) : W1 m ρ c (Proc.devRef .tc main_arg1) = aX1 m c := by
  show StableHlo.after hostOps0 (W0 m ρ c) (Proc.devRef .tc main_arg1) = _
  after_results <;> rfl
theorem at1_arg2 (c : Dev nD) : W1 m ρ c (Proc.devRef .tc main_arg2) = aA2 m c := by
  show StableHlo.after hostOps0 (W0 m ρ c) (Proc.devRef .tc main_arg2) = _
  after_results <;> rfl
theorem at1_arg3 (c : Dev nD) : W1 m ρ c (Proc.devRef .tc main_arg3) = aA3 m c := by
  show StableHlo.after hostOps0 (W0 m ρ c) (Proc.devRef .tc main_arg3) = _
  after_results <;> rfl
theorem at1_arg4 (c : Dev nD) : W1 m ρ c (Proc.devRef .tc main_arg4) = aW1 m c := by
  show StableHlo.after hostOps0 (W0 m ρ c) (Proc.devRef .tc main_arg4) = _
  after_results <;> rfl
theorem at1_v0 (c : Dev nD) : W1 m ρ c (Proc.devRef .tc main_v0) = arr (wBoth m c) := by
  show StableHlo.after hostOps0 (W0 m ρ c) (Proc.devRef .tc main_v0) = _
  after_results
  exact Host.concat_eq _ _

/-! ### After region 0 -/

theorem at2_arg1 (c : Dev nD) : W2 m ρ c (Proc.devRef .tc main_arg1) = aX1 m c :=
  (W2_of_ne m ρ c main_arg1 (by decide)).trans (at1_arg1 m ρ c)
theorem at2_arg2 (c : Dev nD) : W2 m ρ c (Proc.devRef .tc main_arg2) = aA2 m c :=
  (W2_of_ne m ρ c main_arg2 (by decide)).trans (at1_arg2 m ρ c)
theorem at2_arg3 (c : Dev nD) : W2 m ρ c (Proc.devRef .tc main_arg3) = aA3 m c :=
  (W2_of_ne m ρ c main_arg3 (by decide)).trans (at1_arg3 m ρ c)
theorem at2_arg4 (c : Dev nD) : W2 m ρ c (Proc.devRef .tc main_arg4) = aW1 m c :=
  ((W2_arr m ρ c 1).trans (((dat0 (V1 m ρ) c).arrAt_in 1 rfl _).trans (A_eq0 (V1 m ρ) c 1))).trans (at1_arg4 m ρ c)
theorem at2_v0 (c : Dev nD) : W2 m ρ c (Proc.devRef .tc main_v0) = arr (wBoth m c) :=
  (W2_of_ne m ρ c main_v0 (by decide)).trans (at1_v0 m ρ c)
theorem at2_v1 (c : Dev nD) : W2 m ρ c (Proc.devRef .tc main_v1) = arr (featOut m c) :=
  (W2_arr m ρ c 2).trans (Region0.final_of (V1 m ρ) c (aX0 m c) (aW1 m c) (at1_arg0 m ρ c) (at1_arg4 m ρ c))

/-! ### After region 1 -/

theorem at3_arg2 (c : Dev nD) : W3 m ρ c (Proc.devRef .tc main_arg2) = aA2 m c :=
  (W3_of_ne m ρ c main_arg2 (by decide)).trans (at2_arg2 m ρ c)
theorem at3_arg3 (c : Dev nD) : W3 m ρ c (Proc.devRef .tc main_arg3) = aA3 m c :=
  (W3_of_ne m ρ c main_arg3 (by decide)).trans (at2_arg3 m ρ c)
theorem at3_v0 (c : Dev nD) : W3 m ρ c (Proc.devRef .tc main_v0) = arr (wBoth m c) :=
  (W3_of_ne m ρ c main_v0 (by decide)).trans (at2_v0 m ρ c)
theorem at3_v1 (c : Dev nD) : W3 m ρ c (Proc.devRef .tc main_v1) = arr (featOut m c) :=
  (W3_of_ne m ρ c main_v1 (by decide)).trans (at2_v1 m ρ c)
theorem at3_v2 (c : Dev nD) : W3 m ρ c (Proc.devRef .tc main_v2) = arr (featIn m c) :=
  (W3_arr m ρ c 2).trans (Region1.final_of (V2 m ρ) c (aX1 m c) (aW1 m c) (at2_arg1 m ρ c) (at2_arg4 m ρ c))

/-! ### After region 2 -/

theorem at4_arg2 (c : Dev nD) : W4 m ρ c (Proc.devRef .tc main_arg2) = aA2 m c :=
  ((W4_arr m ρ c 0).trans (((dat2 (V3 m ρ) c).arrAt_in 0 rfl _).trans (A_eq2 (V3 m ρ) c 0))).trans (at3_arg2 m ρ c)
theorem at4_arg3 (c : Dev nD) : W4 m ρ c (Proc.devRef .tc main_arg3) = aA3 m c :=
  (W4_of_ne m ρ c main_arg3 (by decide)).trans (at3_arg3 m ρ c)
theorem at4_v0 (c : Dev nD) : W4 m ρ c (Proc.devRef .tc main_v0) = arr (wBoth m c) :=
  ((W4_arr m ρ c 2).trans (((dat2 (V3 m ρ) c).arrAt_in 2 rfl _).trans (A_eq2 (V3 m ρ) c 2))).trans (at3_v0 m ρ c)
theorem at4_v2 (c : Dev nD) : W4 m ρ c (Proc.devRef .tc main_v2) = arr (featIn m c) :=
  (W4_of_ne m ρ c main_v2 (by decide)).trans (at3_v2 m ρ c)
theorem at4_v3 (c : Dev nD) : W4 m ρ c (Proc.devRef .tc main_v3) = arr (passOut m c) :=
  (W4_arr m ρ c 3).trans (Region2.final_of (V3 m ρ) c (aA2 m c) (arr (featOut m c)) (arr (wBoth m c)) (at3_arg2 m ρ c) (at3_v1 m ρ c) (at3_v0 m ρ c))

/-! ### After region 3 -/

theorem at5_arg2 (c : Dev nD) : W5 m ρ c (Proc.devRef .tc main_arg2) = aA2 m c :=
  (W5_of_ne m ρ c main_arg2 (by decide)).trans (at4_arg2 m ρ c)
theorem at5_arg3 (c : Dev nD) : W5 m ρ c (Proc.devRef .tc main_arg3) = aA3 m c :=
  ((W5_arr m ρ c 0).trans (((dat3 (V4 m ρ) c).arrAt_in 0 rfl _).trans (A_eq3 (V4 m ρ) c 0))).trans (at4_arg3 m ρ c)
theorem at5_v3 (c : Dev nD) : W5 m ρ c (Proc.devRef .tc main_v3) = arr (passOut m c) :=
  (W5_of_ne m ρ c main_v3 (by decide)).trans (at4_v3 m ρ c)
theorem at5_v4 (c : Dev nD) : W5 m ρ c (Proc.devRef .tc main_v4) = arr (passIn m c) :=
  (W5_arr m ρ c 3).trans (Region3.final_of (V4 m ρ) c (aA3 m c) (arr (featIn m c)) (arr (wBoth m c)) (at4_arg3 m ρ c) (at4_v2 m ρ c) (at4_v0 m ρ c))

/-! ### After region 4 -/

theorem at6_arg3 (c : Dev nD) : W6 m ρ c (Proc.devRef .tc main_arg3) = aA3 m c :=
  (W6_of_ne m ρ c main_arg3 (by decide)).trans (at5_arg3 m ρ c)
theorem at6_v4 (c : Dev nD) : W6 m ρ c (Proc.devRef .tc main_v4) = arr (passIn m c) :=
  (W6_of_ne m ρ c main_v4 (by decide)).trans (at5_v4 m ρ c)
theorem at6_v5 (c : Dev nD) : W6 m ρ c (Proc.devRef .tc main_v5) = arr (headsOut m c) :=
  (W6_arr m ρ c 2).trans (Region4.final_of (V5 m ρ) c (aA2 m c) (arr (passOut m c)) (at5_arg2 m ρ c) (at5_v3 m ρ c))

/-! ### After region 5 -/

theorem at7_v5 (c : Dev nD) : W7 m ρ c (Proc.devRef .tc main_v5) = arr (headsOut m c) :=
  (W7_of_ne m ρ c main_v5 (by decide)).trans (at6_v5 m ρ c)
theorem at7_v6 (c : Dev nD) : W7 m ρ c (Proc.devRef .tc main_v6) = arr (headsIn m c) :=
  (W7_arr m ρ c 2).trans (Region5.final_of (V6 m ρ) c (aA3 m c) (arr (passIn m c)) (at6_arg3 m ρ c) (at6_v4 m ρ c))

/-! ### After the second host stretch -/

theorem at8_v7 (c : Dev nD) : W8 m ρ c (Proc.devRef .tc main_v7) = arr (colsLo (headsOut m c)) := by
  show StableHlo.after hostOps6 (W7 m ρ c) (Proc.devRef .tc main_v7) = _
  after_results
  rw [at7_v5 m ρ c]
  exact Host.sliceLo_eq _
theorem at8_v8 (c : Dev nD) : W8 m ρ c (Proc.devRef .tc main_v8) = arr (colsHi (headsOut m c)) := by
  show StableHlo.after hostOps6 (W7 m ρ c) (Proc.devRef .tc main_v8) = _
  after_results
  rw [at7_v5 m ρ c]
  exact Host.sliceHi_eq _
theorem at8_v9 (c : Dev nD) : W8 m ρ c (Proc.devRef .tc main_v9) = arr (colsLo (headsIn m c)) := by
  show StableHlo.after hostOps6 (W7 m ρ c) (Proc.devRef .tc main_v9) = _
  after_results
  rw [at7_v6 m ρ c]
  exact Host.sliceLo_eq _
theorem at8_v10 (c : Dev nD) : W8 m ρ c (Proc.devRef .tc main_v10) = arr (colsHi (headsIn m c)) := by
  show StableHlo.after hostOps6 (W7 m ρ c) (Proc.devRef .tc main_v10) = _
  after_results
  rw [at7_v6 m ρ c]
  exact Host.sliceHi_eq _
theorem at8_v11 (c : Dev nD) : W8 m ρ c (Proc.devRef .tc main_v11) = arr (colsLo (headsOut m c)) := by
  show StableHlo.after hostOps6 (W7 m ρ c) (Proc.devRef .tc main_v11) = _
  after_results
  rw [at7_v5 m ρ c]
  exact (Host.narrow_eq _ _).trans (Host.sliceLo_eq _)
theorem at8_v13 (c : Dev nD) : W8 m ρ c (Proc.devRef .tc main_v13) = arr (tr (colsLo (headsIn m c))) := by
  show StableHlo.after hostOps6 (W7 m ρ c) (Proc.devRef .tc main_v13) = _
  after_results
  rw [at7_v6 m ρ c]
  refine (Host.narrow_eq _ _).trans ?_
  rw [Host.sliceLo_eq]
  exact Host.transpose_eq _

/-! ### After region 6 -/

theorem at9_v7 (c : Dev nD) : W9 m ρ c (Proc.devRef .tc main_v7) = arr (colsLo (headsOut m c)) :=
  (W9_of_ne m ρ c main_v7 (by decide)).trans (at8_v7 m ρ c)
theorem at9_v8 (c : Dev nD) : W9 m ρ c (Proc.devRef .tc main_v8) = arr (colsHi (headsOut m c)) :=
  (W9_of_ne m ρ c main_v8 (by decide)).trans (at8_v8 m ρ c)
theorem at9_v9 (c : Dev nD) : W9 m ρ c (Proc.devRef .tc main_v9) = arr (colsLo (headsIn m c)) :=
  (W9_of_ne m ρ c main_v9 (by decide)).trans (at8_v9 m ρ c)
theorem at9_v10 (c : Dev nD) : W9 m ρ c (Proc.devRef .tc main_v10) = arr (colsHi (headsIn m c)) :=
  (W9_of_ne m ρ c main_v10 (by decide)).trans (at8_v10 m ρ c)
theorem at9_v14 (c : Dev nD) : W9 m ρ c (Proc.devRef .tc main_v14) = arr (decode (colsLo (headsOut m c)) (colsLo (headsIn m c))) :=
  (W9_arr m ρ c 2).trans (Region6.final_of (V8 m ρ) c (arr (colsLo (headsOut m c))) (arr (tr (colsLo (headsIn m c)))) (at8_v11 m ρ c) (at8_v13 m ρ c))

/-! ## The results at the return -/

/-- The first side's mean: A · (H · W2). -/
theorem res_mu_out (c : Dev nD) : W9 m ρ c (Proc.devRef .tc main_v7)
    = arr (head zero32 (mat (aA2 m c)) (mat (aX0 m c)) (mat (aW1 m c)) (mat (aW2 m c))) :=
  (at9_v7 m ρ c).trans (congrArg arr (colsLo_heads _ _ _ _ _ _))

/-- The second side's mean. -/
theorem res_mu_in (c : Dev nD) : W9 m ρ c (Proc.devRef .tc main_v9)
    = arr (head zero32 (mat (aA3 m c)) (mat (aX1 m c)) (mat (aW1 m c)) (mat (aW2 m c))) :=
  (at9_v9 m ρ c).trans (congrArg arr (colsLo_heads _ _ _ _ _ _))

/-- The first side's log-variance: A · (H · W3). -/
theorem res_logvar_out (c : Dev nD) : W9 m ρ c (Proc.devRef .tc main_v8)
    = arr (head zero32 (mat (aA2 m c)) (mat (aX0 m c)) (mat (aW1 m c)) (mat (aW3 m c))) :=
  (at9_v8 m ρ c).trans (congrArg arr (colsHi_heads _ _ _ _ _ _))

/-- The second side's log-variance. -/
theorem res_logvar_in (c : Dev nD) : W9 m ρ c (Proc.devRef .tc main_v10)
    = arr (head zero32 (mat (aA3 m c)) (mat (aX1 m c)) (mat (aW1 m c)) (mat (aW3 m c))) :=
  (at9_v10 m ρ c).trans (congrArg arr (colsHi_heads _ _ _ _ _ _))

/-- The reconstruction: the first side's mean times the second side's mean transposed. -/
theorem res_recon (c : Dev nD) : W9 m ρ c (Proc.devRef .tc main_v14)
    = arr (decode (head zero32 (mat (aA2 m c)) (mat (aX0 m c)) (mat (aW1 m c)) (mat (aW2 m c)))
        (head zero32 (mat (aA3 m c)) (mat (aX1 m c)) (mat (aW1 m c)) (mat (aW2 m c)))) := by
  refine (at9_v14 m ρ c).trans ?_
  unfold headsOut headsIn
  rw [colsLo_heads, colsLo_heads]

end Cert.KernelIdeal.Fold

end
-- ==== Proof.RefValue.lean ====
/-
  The reference program's results, as the same textbook formulas.

  The reference is a straight line of host operations: X · W1, A · (X · W1), the rectifier, then for each head a
  product with that head's weight matrix and one more product with the adjacency; last the second side's mean is
  transposed and multiplied into the first side's. The host's matrix product with one contracted axis is, entry by
  entry, the sum over that axis of the operands' products; the rectifier is the entrywise maximum with the number
  the zero word denotes; a transpose swaps the two coordinates. So each result is the encoder head (or the decoder
  product) of the argument arrays, as a function of two coordinates.
-/
import proofs.«161427_g53214644798189_cont_9to1_m_710_6_alg».proof.Proof.Gen.ReferenceIdeal
import proofs.«161427_g53214644798189_cont_9to1_m_710_6_alg».proof.Proof.LibPlainProduct
import proofs.«161427_g53214644798189_cont_9to1_m_710_6_alg».proof.Proof.Spec
import Idealize.ShloMosaic.Lib.Pipeline.Value

noncomputable section

open scoped BigOperators

namespace Cert.Vgae.Ref

open Cert.ReferenceIdeal Cert.ReferenceIdeal.Gen Cert.Vgae
open Idealize.ShloMosaic Idealize.ShloMosaic.ValueIdx

/-- X · W1. -/
theorem dot_feat (x : FVec Ideal S10000x128 .f32) (w : FVec Ideal S128x64 .f32) :
    Host.dotGeneral dot_S10000x128_S128x64_S10000x64_1_0_0_1_n_n none x w = arr (mm (mat x) (mat w)) :=
  eq_arr_of_entries _ _ fun p q => PlainProduct.dotGeneral_at 10000 128 64 x w p q

/-- A · S for a 64-column S. -/
theorem dot_prop64 (a : FVec Ideal S10000x10000 .f32) (s : FVec Ideal S10000x64 .f32) :
    Host.dotGeneral dot_S10000x10000_S10000x64_S10000x64_1_0_0_1_n_n none a s = arr (mm (mat a) (mat s)) :=
  eq_arr_of_entries _ _ fun p q => PlainProduct.dotGeneral_at 10000 10000 64 a s p q

/-- H · W for one head's weight matrix. -/
theorem dot_head (h : FVec Ideal S10000x64 .f32) (w : FVec Ideal S64x32 .f32) :
    Host.dotGeneral dot_S10000x64_S64x32_S10000x32_1_0_0_1_n_n none h w = arr (mm (mat h) (mat w)) :=
  eq_arr_of_entries _ _ fun p q => PlainProduct.dotGeneral_at 10000 64 32 h w p q

/-- A · T for a 32-column T. -/
theorem dot_prop32 (a : FVec Ideal S10000x10000 .f32) (t : FVec Ideal S10000x32 .f32) :
    Host.dotGeneral dot_S10000x10000_S10000x32_S10000x32_1_0_0_1_n_n none a t = arr (mm (mat a) (mat t)) :=
  eq_arr_of_entries _ _ fun p q => PlainProduct.dotGeneral_at 10000 10000 32 a t p q

/-- Z · Zt for the decoder. -/
theorem dot_dec (z : FVec Ideal S10000x32 .f32) (zt : FVec Ideal S32x10000 .f32) :
    Host.dotGeneral dot_S10000x32_S32x10000_S10000x10000_1_0_0_1_n_n none z zt = arr (mm (mat z) (mat zt)) :=
  eq_arr_of_entries _ _ fun p q => PlainProduct.dotGeneral_at 10000 32 10000 z zt p q

/-- The rectifier: the entrywise maximum with the zero word's number. -/
theorem relu_eq (h : FVec Ideal S10000x64 .f32) :
    maximumf h (broadcastInDim S10000x64 ![] bcast_S_S10000x64 (constant (F := Ideal) S_ .f32 0x00000000#32))
      = arr (floorAt zero32 (mat h)) :=
  eq_arr_of_entries _ _ fun p q => rfl

/-- The transpose swaps the coordinates. -/
theorem transpose_eq (z : FVec Ideal S10000x32 .f32) :
    transpose S32x10000 [1, 0] z transposes_S10000x32_S32x10000_1_0 = arr (tr (mat z)) :=
  eq_arr_of_entries _ _ fun k r =>
    transpose_apply _ z _ (ix2 k r) (ix2 r k) (fun b => by match b with | ⟨0, _⟩ => rfl | ⟨1, _⟩ => rfl)

/-- One head of the encoder as the reference spells it. -/
theorem head_eq (a : FVec Ideal S10000x10000 .f32) (x : FVec Ideal S10000x128 .f32) (w1 : FVec Ideal S128x64 .f32)
    (w : FVec Ideal S64x32 .f32) :
    Host.dotGeneral dot_S10000x10000_S10000x32_S10000x32_1_0_0_1_n_n none a
        (Host.dotGeneral dot_S10000x64_S64x32_S10000x32_1_0_0_1_n_n none
          (maximumf (Host.dotGeneral dot_S10000x10000_S10000x64_S10000x64_1_0_0_1_n_n none a
              (Host.dotGeneral dot_S10000x128_S128x64_S10000x64_1_0_0_1_n_n none x w1))
            (broadcastInDim S10000x64 ![] bcast_S_S10000x64 (constant (F := Ideal) S_ .f32 0x00000000#32))) w)
      = arr (head zero32 (mat a) (mat x) (mat w1) (mat w)) := by
  rw [dot_feat, dot_prop64, relu_eq, dot_head, dot_prop32]
  rfl

/-- The decoder as the reference spells it, over the two sides' means. -/
theorem decode_eq (zo zi : FVec Ideal S10000x32 .f32) :
    Host.dotGeneral dot_S10000x32_S32x10000_S10000x10000_1_0_0_1_n_n none zo
        (transpose S32x10000 [1, 0] zi transposes_S10000x32_S32x10000_1_0)
      = arr (decode (mat zo) (mat zi)) := by
  rw [transpose_eq, dot_dec]
  rfl

end Cert.Vgae.Ref

end
-- ==== Proof.lean ====
/-
  Two programs for a variational graph auto-encoder on a bipartite graph agree on the extended reals.

  Each side (adjacency A, features X) is encoded by  H = max(A · (X · W1), 0),  mu = A · (H · W2),
  logvar = A · (H · W3),  and the reconstruction is  mu_out · mu_inᵀ.  The reference forms these products one after
  another. The kernel program tiles the 10000 rows into 25 stretches of 400, fuses the two heads into one product with
  the weight matrices laid side by side, [W2 | W3], and splits the columns of A · (H · [W2 | W3]) afterwards; its decoder
  multiplies factors of a narrower float format.

  Why they agree: a matrix product is, entry by entry, the sum over the contracted coordinate of the operands'
  products, whatever the tiling; a row of a product reads only that row of its left factor (so the row stretches of
  every product are the products of the row stretches), and a column only that column of its right factor (so the left
  and right halves of the fused heads are the two heads); the rectifier is taken entry by entry; and on the extended
  reals a change of float format is the identity. No sum is reordered and no factor moved across a sum, so the
  equalities hold for all extended-real inputs and the precondition (finite inputs) is never opened.

  The three frames: the two kernel programs' runs are the chain of their segments (host stretches and kernel
  regions), the reference's is its straight line of host operations; in each the argument arrays end as launched. No
  operation of the kernel program is rewritten by its idealization.
-/
import proofs.«161427_g53214644798189_cont_9to1_m_710_6_alg».proof.Defs
import proofs.«161427_g53214644798189_cont_9to1_m_710_6_alg».proof.Proof.Gen.Kernel
import proofs.«161427_g53214644798189_cont_9to1_m_710_6_alg».proof.Proof.Gen.Kernel.Frame
import proofs.«161427_g53214644798189_cont_9to1_m_710_6_alg».proof.Proof.Gen.KernelIdeal
import proofs.«161427_g53214644798189_cont_9to1_m_710_6_alg».proof.Proof.Gen.KernelIdeal.Frame
import proofs.«161427_g53214644798189_cont_9to1_m_710_6_alg».proof.Proof.Gen.ReferenceIdeal
import proofs.«161427_g53214644798189_cont_9to1_m_710_6_alg».proof.Proof.Gen.ReferenceIdeal.Run
import proofs.«161427_g53214644798189_cont_9to1_m_710_6_alg».proof.Proof.Gen.Pre_finite_inputs
import proofs.«161427_g53214644798189_cont_9to1_m_710_6_alg».proof.Proof.KernelRun
import proofs.«161427_g53214644798189_cont_9to1_m_710_6_alg».proof.Proof.Fold
import proofs.«161427_g53214644798189_cont_9to1_m_710_6_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Cert.Vgae

/-- The word-level kernel program runs, and its arguments end as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs, and its arguments end as launched: its run with the results dropped. -/
theorem frame_ri : Cert.frame_ReferenceIdeal := fun m ρ _ =>
  (θ_run Cert.ReferenceIdeal.defs _ _).mono (fun _ h c => (h c).2.2.2.2.2.2.2) (Cert.ReferenceIdeal.Value.run (F := Ideal) m ρ)

/-- The idealization rewrote no operation. -/
theorem preserves : Cert.preserves_Kernel_KernelIdeal := trivial

/-- Both idealized programs, from memories agreeing on the arguments, end with the two means, the reconstruction
    and the two log-variances at the same functions of the arguments. -/
theorem algebraic : Cert.algebraic_KernelIdeal_ReferenceIdeal := by
  intro m ρ m' ρ' _ hagree
  refine ⟨fun c => arr (head zero32 (mat (Cert.KernelIdeal.Fold.aA2 m c)) (mat (Cert.KernelIdeal.Fold.aX0 m c)) (mat (Cert.KernelIdeal.Fold.aW1 m c)) (mat (Cert.KernelIdeal.Fold.aW2 m c))), fun c => arr (head zero32 (mat (Cert.KernelIdeal.Fold.aA3 m c)) (mat (Cert.KernelIdeal.Fold.aX1 m c)) (mat (Cert.KernelIdeal.Fold.aW1 m c)) (mat (Cert.KernelIdeal.Fold.aW2 m c))), fun c => arr (decode (head zero32 (mat (Cert.KernelIdeal.Fold.aA2 m c)) (mat (Cert.KernelIdeal.Fold.aX0 m c)) (mat (Cert.KernelIdeal.Fold.aW1 m c)) (mat (Cert.KernelIdeal.Fold.aW2 m c))) (head zero32 (mat (Cert.KernelIdeal.Fold.aA3 m c)) (mat (Cert.KernelIdeal.Fold.aX1 m c)) (mat (Cert.KernelIdeal.Fold.aW1 m c)) (mat (Cert.KernelIdeal.Fold.aW2 m c)))),
    fun c => arr (head zero32 (mat (Cert.KernelIdeal.Fold.aA2 m c)) (mat (Cert.KernelIdeal.Fold.aX0 m c)) (mat (Cert.KernelIdeal.Fold.aW1 m c)) (mat (Cert.KernelIdeal.Fold.aW2 m c))), fun c => arr (head zero32 (mat (Cert.KernelIdeal.Fold.aA3 m c)) (mat (Cert.KernelIdeal.Fold.aX1 m c)) (mat (Cert.KernelIdeal.Fold.aW1 m c)) (mat (Cert.KernelIdeal.Fold.aW2 m c))), fun c => arr (head zero32 (mat (Cert.KernelIdeal.Fold.aA2 m c)) (mat (Cert.KernelIdeal.Fold.aX0 m c)) (mat (Cert.KernelIdeal.Fold.aW1 m c)) (mat (Cert.KernelIdeal.Fold.aW3 m c))), fun c => arr (head zero32 (mat (Cert.KernelIdeal.Fold.aA3 m c)) (mat (Cert.KernelIdeal.Fold.aX1 m c)) (mat (Cert.KernelIdeal.Fold.aW1 m c)) (mat (Cert.KernelIdeal.Fold.aW3 m c))), ?_, ?_⟩
  · exact (θ_run Cert.KernelIdeal.defs _ _).mono (fun r h c =>
      ⟨(Cert.KernelIdeal.RunValue.at_result m ρ r h c Cert.KernelIdeal.main_v7 (by decide)).trans (Cert.KernelIdeal.Fold.res_mu_out m ρ c),
       (Cert.KernelIdeal.RunValue.at_result m ρ r h c Cert.KernelIdeal.main_v9 (by decide)).trans (Cert.KernelIdeal.Fold.res_mu_in m ρ c),
       (Cert.KernelIdeal.RunValue.at_result m ρ r h c Cert.KernelIdeal.main_v14 (by decide)).trans (Cert.KernelIdeal.Fold.res_recon m ρ c),
       (Cert.KernelIdeal.RunValue.at_result m ρ r h c Cert.KernelIdeal.main_v7 (by decide)).trans (Cert.KernelIdeal.Fold.res_mu_out m ρ c),
       (Cert.KernelIdeal.RunValue.at_result m ρ r h c Cert.KernelIdeal.main_v9 (by decide)).trans (Cert.KernelIdeal.Fold.res_mu_in m ρ c),
       (Cert.KernelIdeal.RunValue.at_result m ρ r h c Cert.KernelIdeal.main_v8 (by decide)).trans (Cert.KernelIdeal.Fold.res_logvar_out m ρ c),
       (Cert.KernelIdeal.RunValue.at_result m ρ r h c Cert.KernelIdeal.main_v10 (by decide)).trans (Cert.KernelIdeal.Fold.res_logvar_in m ρ c),
       (Cert.KernelIdeal.RunValue.at_result m ρ r h c Cert.KernelIdeal.main_arg0 (by decide)).trans (Cert.KernelIdeal.Gen.W9_main_arg0 m ρ c),
       (Cert.KernelIdeal.RunValue.at_result m ρ r h c Cert.KernelIdeal.main_arg1 (by decide)).trans (Cert.KernelIdeal.Gen.W9_main_arg1 m ρ c),
       (Cert.KernelIdeal.RunValue.at_result m ρ r h c Cert.KernelIdeal.main_arg2 (by decide)).trans (Cert.KernelIdeal.Gen.W9_main_arg2 m ρ c),
       (Cert.KernelIdeal.RunValue.at_result m ρ r h c Cert.KernelIdeal.main_arg3 (by decide)).trans (Cert.KernelIdeal.Gen.W9_main_arg3 m ρ c),
       (Cert.KernelIdeal.RunValue.at_result m ρ r h c Cert.KernelIdeal.main_arg4 (by decide)).trans (Cert.KernelIdeal.Gen.W9_main_arg4 m ρ c),
       (Cert.KernelIdeal.RunValue.at_result m ρ r h c Cert.KernelIdeal.main_arg5 (by decide)).trans (Cert.KernelIdeal.Gen.W9_main_arg5 m ρ c),
       (Cert.KernelIdeal.RunValue.at_result m ρ r h c Cert.KernelIdeal.main_arg6 (by decide)).trans (Cert.KernelIdeal.Gen.W9_main_arg6 m ρ c)⟩)
      (Cert.KernelIdeal.RunValue.run_boundary m ρ)
  · refine (θ_run Cert.ReferenceIdeal.defs _ _).mono (fun r h c => ?_) (Cert.ReferenceIdeal.Value.run (F := Ideal) m' ρ')
    obtain ⟨h0, h1, h2, h3, h4, h5, h6, ha⟩ := h c
    obtain ⟨g0, g1, g2, g3, g4, g5, g6⟩ := hagree c
    refine ⟨h0.trans ?_, h1.trans ?_, h2.trans ?_, h3.trans ?_, h4.trans ?_, h5.trans ?_, h6.trans ?_, ha⟩
    · rw [g0, g2, g4, g5]; exact Ref.head_eq _ _ _ _
    · rw [g1, g3, g4, g5]; exact Ref.head_eq _ _ _ _
    · rw [g0, g1, g2, g3, g4, g5, Ref.head_eq, Ref.head_eq]; exact Ref.decode_eq _ _
    · rw [g0, g2, g4, g5]; exact Ref.head_eq _ _ _ _
    · rw [g1, g3, g4, g5]; exact Ref.head_eq _ _ _ _
    · rw [g0, g2, g4, g6]; exact Ref.head_eq _ _ _ _
    · rw [g1, g3, g4, g6]; exact Ref.head_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
